-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : IVec S4000000 32) (main_arg3 : IVec S4000000 32) (main_arg4 : FVec F S4000000 .f32) (main_arg5 : IVec S4096 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg4
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S8000x1 : Shape := ⟨2, ![8000, 1]⟩
abbrev S8000x64 : Shape := ⟨2, ![8000, 64]⟩
abbrev S4096x1 : Shape := ⟨2, ![4096, 1]⟩
abbrev S4096x64 : Shape := ⟨2, ![4096, 64]⟩
abbrev S1x1 : Shape := ⟨2, ![1, 1]⟩
abbrev S1 : Shape := ⟨1, ![1]⟩

abbrev nBuf : Space → Nat
  | .hbm => 120
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S150000x64, .f32⟩
  | .hbm, ⟨22, _⟩ => ⟨S4000000x1, .i32⟩
  | .hbm, ⟨23, _⟩ => ⟨S150000x64, .f32⟩
  | .hbm, ⟨24, _⟩ => ⟨S150000x64, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S4000000x64, .f32⟩
  | .hbm, ⟨35, _⟩ => ⟨S_, .f32⟩
  | .hbm, ⟨36, _⟩ => ⟨S150000x64, .f32⟩
  | .hbm, ⟨37, _⟩ => ⟨S4000000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x64, .f32⟩
  | .hbm, ⟨49, _⟩ => ⟨S4000000x64, .f32⟩
  | .hbm, ⟨50, _⟩ => ⟨S_, .f32⟩
  | .hbm, ⟨51, _⟩ => ⟨S150000x64, .f32⟩
  | .hbm, ⟨52, _⟩ => ⟨S4000000x1, .i32⟩
  | .hbm, ⟨53, _⟩ => ⟨S150000x64, .f32⟩
  | .hbm, ⟨54, _⟩ => ⟨S150000x64, .f32⟩
  | .hbm, ⟨55, _⟩ => ⟨S_, .f32⟩
  | .hbm, ⟨56, _⟩ => ⟨S150000x64, .f32⟩
  | .hbm, ⟨57, _⟩ => ⟨S150000x64, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4096x64, .f32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S4096x1, .i32⟩
  | .hbm, ⟨78, _⟩ => ⟨S4096x64, .f32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x64, .f32⟩
  | .hbm, ⟨91, _⟩ => ⟨S_, .i32⟩
  | .hbm, ⟨92, _⟩ => ⟨S4096, .i32⟩
  | .hbm, ⟨93, _⟩ => ⟨S4096, .i1⟩
  | .hbm, ⟨94, _⟩ => ⟨S_, .i32⟩
  | .hbm, ⟨95, _⟩ => ⟨S4096, .i32⟩
  | .hbm, ⟨96, _⟩ => ⟨S4096, .i32⟩
  | .hbm, ⟨97, _⟩ => ⟨S4096, .i32⟩
  | .hbm, ⟨98, _⟩ => ⟨S4096x1, .i32⟩
  | .hbm, ⟨99, _⟩ => ⟨S4096x64, .f32⟩
  | .hbm, ⟨100, _⟩ => ⟨S_, .i32⟩
  | .hbm, ⟨101, _⟩ => ⟨S4096, .i32⟩
  | .hbm, ⟨102, _⟩ => ⟨S4096, .i1⟩
  | .hbm, ⟨103, _⟩ => ⟨S_, .i32⟩
  | .hbm, ⟨104, _⟩ => ⟨S4096, .i32⟩
  | .hbm, ⟨105, _⟩ => ⟨S4096, .i32⟩
  | .hbm, ⟨106, _⟩ => ⟨S4096, .i32⟩
  | .hbm, ⟨107, _⟩ => ⟨S4096x1, .i32⟩
  | .hbm, ⟨108, _⟩ => ⟨S4096x64, .f32⟩
  | .hbm, ⟨109, _⟩ => ⟨S_, .i32⟩
  | .hbm, ⟨110, _⟩ => ⟨S4096, .i32⟩
  | .hbm, ⟨111, _⟩ => ⟨S4096, .i1⟩
  | .hbm, ⟨112, _⟩ => ⟨S_, .i32⟩
  | .hbm, ⟨113, _⟩ => ⟨S4096, .i32⟩
  | .hbm, ⟨114, _⟩ => ⟨S4096, .i32⟩
  | .hbm, ⟨115, _⟩ => ⟨S4096, .i32⟩
  | .hbm, ⟨116, _⟩ => ⟨S4096x1, .i32⟩
  | .hbm, ⟨117, _⟩ => ⟨S4096x64, .f32⟩
  | .hbm, ⟨118, _⟩ => ⟨S1x1, .f32⟩
  | .hbm, ⟨119, _⟩ => ⟨S_, .f32⟩
  | .local _ .vmem, ⟨0, _⟩ => ⟨S8000x1, .f32⟩
  | .local _ .vmem, ⟨1, _⟩ => ⟨S8000x1, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x1, .f32⟩
  | .local _ .vmem, ⟨13, _⟩ => ⟨S8000x1, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x64, .f32⟩
  | .local _ .vmem, ⟨24, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_c_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_16 : Ref sig .tc := ⟨.hbm, 91, rfl⟩
abbrev main_v65 : Ref sig .tc := ⟨.hbm, 92, rfl⟩
abbrev main_v66 : Ref sig .tc := ⟨.hbm, 93, rfl⟩
abbrev main_c_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_c_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_20 : Ref sig .tc := ⟨.hbm, 109, rfl⟩
abbrev main_v79 : Ref sig .tc := ⟨.hbm, 110, rfl⟩
abbrev main_v80 : Ref sig .tc := ⟨.hbm, 111, rfl⟩
abbrev main_c_21 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4096x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4096x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4096x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  concatenates_S100000x64_S50000x64_S150000x64_d0 : Shape.Concatenates [S100000x64, S50000x64] S150000x64 0
  shapeCasts_S4000000_S4000000x1 : S4000000.ShapeCasts S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S150000x64 : S_.BroadcastsInDim S150000x64 (![] : Fin 0 → Fin S150000x64.rank)
  bcast_S_S4096 : S_.BroadcastsInDim S4096 (![] : Fin 0 → Fin S4096.rank)
  bcast_S4096_S4096x1_0 : S4096.BroadcastsInDim S4096x1 (![0] : Fin 1 → Fin S4096x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  reduces_S4096x1_S1 : S4096x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S150000x64_S4096x1_S4096x64_1_0_n_n_0_1_164_wf : GatherDims.WF S150000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S4000000x1.size a
  hwx0_0 : ∀ i : grid0.Coords, EltTy.bits .f32 = 32 ∨ (Rect.block (s := S4000000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S4000000x64.size a
  hwx0_1 : ∀ i : grid0.Coords, EltTy.bits .f32 = 32 ∨ (Rect.block (s := S4000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S4000000x64.size a
  hwx0_2 : ∀ i : grid0.Coords, EltTy.bits .f32 = 32 ∨ (Rect.block (s := S4000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S4000000x1.size a
  hwx1_0 : ∀ i : grid1.Coords, EltTy.bits .f32 = 32 ∨ (Rect.block (s := S4000000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S4000000x64.size a
  hwx1_1 : ∀ i : grid1.Coords, EltTy.bits .f32 = 32 ∨ (Rect.block (s := S4000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S4000000x64.size a
  hwx1_2 : ∀ i : grid1.Coords, EltTy.bits .f32 = 32 ∨ (Rect.block (s := S4000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S4000000x1.size a
  hwx2_0 : ∀ i : grid2.Coords, EltTy.bits .f32 = 32 ∨ (Rect.block (s := S4000000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S4000000x64.size a
  hwx2_1 : ∀ i : grid2.Coords, EltTy.bits .f32 = 32 ∨ (Rect.block (s := S4000000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S4000000x64.size a
  hwx2_2 : ∀ i : grid2.Coords, EltTy.bits .f32 = 32 ∨ (Rect.block (s := S4000000x64) S8000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S4096x64.size a
  hwx3_0 : ∀ i : grid3.Coords, EltTy.bits .f32 = 32 ∨ (Rect.block (s := S4096x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S4096x64.size a
  hwx3_1 : ∀ i : grid3.Coords, EltTy.bits .f32 = 32 ∨ (Rect.block (s := S4096x64) S4096x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S4096x64.size a
  hwx3_2 : ∀ i : grid3.Coords, EltTy.bits .f32 = 32 ∨ (Rect.block (s := S4096x64) S4096x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S4096x64.size a
  hwx3_3 : ∀ i : grid3.Coords, EltTy.bits .f32 = 32 ∨ (Rect.block (s := S4096x64) S4096x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S4096x64.size a
  hwx3_4 : ∀ i : grid3.Coords, EltTy.bits .f32 = 32 ∨ (Rect.block (s := S4096x64) S4096x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S4096x64.size a
  hwx3_5 : ∀ i : grid3.Coords, EltTy.bits .f32 = 32 ∨ (Rect.block (s := S4096x64) S4096x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S150000x64_S4096x1_S4096x64_1_0_n_n_0_1_164 : GatherDims S150000x64 S4096x1 S4096x64 where
  offsetDims := [1]
  collapsedSliceDims := [0]
  operandBatchingDims := []
  startIndicesBatchingDims := []
  startIndexMap := [0]
  indexVectorDim := 1
  sliceSizes := ![1, 64]
  wf := gather_S150000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v1) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S4096x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v55) S4096x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S4096x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S4096x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S4096x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S4096x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S1x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S50000x64, .f32⟩
  | 2 => ⟨S4000000, .i32⟩
  | 3 => ⟨S4000000, .i32⟩
  | 4 => ⟨S4000000, .f32⟩
  | 5 => ⟨S4096, .i32⟩
  | 6 => ⟨S4096, .i32⟩
  | 7 => ⟨S4096, .i32⟩
  | 8 => ⟨S150000x64, .f32⟩
  | 9 => ⟨S4000000x1, .f32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S4000000x1, .i32⟩
  | 18 => ⟨S4000000x64, .f32⟩
  | 19 => ⟨S4000000x64, .f32⟩
  | 20 => ⟨S4000000x64, .f32⟩
  | 21 => ⟨S_, .f32⟩
  | 22 => ⟨S150000x64, .f32⟩
  | 23 => ⟨S4000000x1, .i32⟩
  | 24 => ⟨S150000x64, .f32⟩
  | 25 => ⟨S150000x64, .f32⟩
  | 26 => ⟨S4000000x1, .f32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S4000000x1, .i32⟩
  | 35 => ⟨S4000000x64, .f32⟩
  | 36 => ⟨S4000000x64, .f32⟩
  | 37 => ⟨S4000000x64, .f32⟩
  | 38 => ⟨S_, .f32⟩
  | 39 => ⟨S150000x64, .f32⟩
  | 40 => ⟨S4000000x1, .i32⟩
  | 41 => ⟨S150000x64, .f32⟩
  | 42 => ⟨S150000x64, .f32⟩
  | 43 => ⟨S4000000x1, .f32⟩
  | 44 => ⟨S_, .i32⟩
  | 45 => ⟨S4000000, .i32⟩
  | 46 => ⟨S4000000, .i1⟩
  | 47 => ⟨S_, .i32⟩
  | 48 => ⟨S4000000, .i32⟩
  | 49 => ⟨S4000000, .i32⟩
  | 50 => ⟨S4000000, .i32⟩
  | 51 => ⟨S4000000x1, .i32⟩
  | 52 => ⟨S4000000x64, .f32⟩
  | 53 => ⟨S4000000x64, .f32⟩
  | 54 => ⟨S4000000x64, .f32⟩
  | 55 => ⟨S_, .f32⟩
  | 56 => ⟨S150000x64, .f32⟩
  | 57 => ⟨S4000000x1, .i32⟩
  | 58 => ⟨S150000x64, .f32⟩
  | 59 => ⟨S150000x64, .f32⟩
  | 60 => ⟨S_, .f32⟩
  | 61 => ⟨S150000x64, .f32⟩
  | 62 => ⟨S150000x64, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096x64, .f32⟩
  | 72 => ⟨S_, .i32⟩
  | 73 => ⟨S4096, .i32⟩
  | 74 => ⟨S4096, .i32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S4096x64, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x64, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x64, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x64, .f32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x64, .f32⟩
  | 123 => ⟨S4096x64, .f32⟩
  | 124 => ⟨S_, .f32⟩
  | 125 => ⟨S_, .f32⟩
  | 126 => ⟨S4096x64, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S4096x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S4096x64, .f32⟩
  | 11 => ⟨S_, .f32⟩
  | 12 => ⟨S4096, .f32⟩
  | 13 => ⟨S4096x64, .f32⟩
  | 14 => ⟨S_, .f32⟩
  | 15 => ⟨S4096, .f32⟩
  | 16 => ⟨S4096, .f32⟩
  | 17 => ⟨S_, .f32⟩
  | 18 => ⟨S4096, .f32⟩
  | 19 => ⟨S4096, .f32⟩
  | 20 => ⟨S4096, .f32⟩
  | 21 => ⟨S4096, .f32⟩
  | 22 => ⟨S4096, .i1⟩
  | 23 => ⟨S4096, .f32⟩
  | 24 => ⟨S4096, .f32⟩
  | 25 => ⟨S4096, .f32⟩
  | 26 => ⟨S4096, .f32⟩
  | 27 => ⟨S4096, .f32⟩
  | 28 => ⟨S4096, .f32⟩
  | 29 => ⟨S4096, .f32⟩
  | 30 => ⟨S4096, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_c_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_c_21 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_22 : Ref sig .tc := ⟨.hbm, 124, rfl⟩
abbrev main_v92 : Ref sig .tc := ⟨.hbm, 125, rfl⟩
abbrev main_v93 : Ref sig .tc := ⟨.hbm, 126, rfl⟩
abbrev main_cst_23 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_24 : Ref sig .tc := ⟨.hbm, 131, rfl⟩
abbrev main_v97 : Ref sig .tc := ⟨.hbm, 132, rfl⟩
abbrev main_v98 : Ref sig .tc := ⟨.hbm, 133, rfl⟩
abbrev main_cst_25 : Ref sig .tc := ⟨.hbm, 134, rfl⟩
abbrev main_v99 : Ref sig .tc := ⟨.hbm, 135, rfl⟩
abbrev main_cst_26 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_cst_28 : Ref sig .tc := ⟨.hbm, 142, rfl⟩
abbrev main_v104 : Ref sig .tc := ⟨.hbm, 143, rfl⟩
abbrev main_v105 : Ref sig .tc := ⟨.hbm, 144, rfl⟩
abbrev main_call0_cst : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_call0_v3 : Ref sig .tc := ⟨.hbm, 149, rfl⟩
abbrev main_call0_v4 : Ref sig .tc := ⟨.hbm, 150, rfl⟩
abbrev main_call0_v5 : Ref sig .tc := ⟨.hbm, 151, rfl⟩
abbrev main_call0_v6 : Ref sig .tc := ⟨.hbm, 152, rfl⟩
abbrev main_call0_v7 : Ref sig .tc := ⟨.hbm, 153, rfl⟩
abbrev main_call0_v8 : Ref sig .tc := ⟨.hbm, 154, rfl⟩
abbrev main_call0_v9 : Ref sig .tc := ⟨.hbm, 155, rfl⟩
abbrev main_call0_v10 : Ref sig .tc := ⟨.hbm, 156, rfl⟩
abbrev main_call0_v11 : Ref sig .tc := ⟨.hbm, 157, rfl⟩
abbrev main_v106 : Ref sig .tc := ⟨.hbm, 158, rfl⟩
abbrev main_cst_29 : Ref sig .tc := ⟨.hbm, 159, rfl⟩
abbrev main_v107 : Ref sig .tc := ⟨.hbm, 160, rfl⟩
abbrev main_cst_30 : Ref sig .tc := ⟨.hbm, 161, rfl⟩
abbrev main_v108 : Ref sig .tc := ⟨.hbm, 162, rfl⟩
abbrev main_cst_31 : Ref sig .tc := ⟨.hbm, 163, rfl⟩
abbrev main_v109 : Ref sig .tc := ⟨.hbm, 164, rfl⟩
abbrev main_v110 : Ref sig .tc := ⟨.hbm, 165, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S_d0_1 : S4096x64.ReducesTo [0, 1] S_
  h_S_ : 0 < S_.numel
  reducesTo_S4096x64_S4096_d1 : S4096x64.ReducesTo [1] S4096
  reducesTo_S4096_S_d0 : S4096.ReducesTo [0] S_
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S150000x64_S4096x1_S4096x64_1_0_n_n_0_1_164_wf : GatherDims.WF S150000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S150000x64_S4096x1_S4096x64_1_0_n_n_0_1_164 : GatherDims S150000x64 S4096x1 S4096x64 where
  offsetDims := [1]
  collapsedSliceDims := [0]
  operandBatchingDims := []
  startIndicesBatchingDims := []
  startIndexMap := [0]
  indexVectorDim := 1
  sliceSizes := ![1, 64]
  wf := gather_S150000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.KernelRun.lean ====
/-
  The idealized kernel's run with its result named.  @main is nine segments: five stretches of host operations and four
  kernel regions between them.  The buffer contents at the nine boundaries are a fold from the launch memory: a stretch
  applies its operations in order, a region replaces its output array by what its grid points wrote back and leaves every
  other buffer alone.  Every weakly fair execution terminates with each unscoped buffer at the last boundary's contents;
  here that reading is kept for the result buffer as well as for the eight argument arrays.
-/
import proofs.«130716_j31147102830630_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the arguments end as launched. -/
theorem run_boundary : θ_run defs (onTc (τ := τ) (main (F := F))) ⟨m, fun _ => 0, ρ⟩ (fun r => ∀ c : Dev nD,
      r.2.mem ((c.tc : Thread nD τ).loc main_v87) = W9 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v87 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Bridge

end
-- ==== Proof.Keep.lean ====
/-
  The argument arrays across the run.  No host operation and no region writes an argument array, so at every boundary
  between segments its contents are the launch contents: a stretch of host operations leaves alone every buffer none of
  its operations writes, and a region leaves alone every buffer that is not one of its windows' arrays.
-/
import proofs.«130716_j31147102830630_2_alg».proof.Proof.Gen.KernelIdeal.Frame

set_option maxRecDepth 16384

noncomputable section

namespace Cert.KernelIdeal.Bridge

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- One stretch of host operations writes none of the buffers in question: each operation's written buffer is another. -/
macro "keep_host" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by keep_host
    _ = m ((c : Thread nD τ).loc main_arg0) := rfl
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by keep_host
    _ = m ((c : Thread nD τ).loc main_arg0) := W2_arg0 m ρ c
theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := by keep_host
    _ = m ((c : Thread nD τ).loc main_arg0) := W4_arg0 m ρ c

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by keep_host
    _ = m ((c : Thread nD τ).loc main_arg1) := rfl
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by keep_host
    _ = m ((c : Thread nD τ).loc main_arg1) := W2_arg1 m ρ c
theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by keep_host
    _ = m ((c : Thread nD τ).loc main_arg1) := W4_arg1 m ρ c

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by keep_host
    _ = m ((c : Thread nD τ).loc main_arg2) := rfl
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by keep_host
    _ = m ((c : Thread nD τ).loc main_arg2) := W2_arg2 m ρ c
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by keep_host
    _ = m ((c : Thread nD τ).loc main_arg2) := W4_arg2 m ρ c

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by keep_host
    _ = m ((c : Thread nD τ).loc main_arg3) := rfl
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keep_host
    _ = m ((c : Thread nD τ).loc main_arg3) := W2_arg3 m ρ c
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by keep_host
    _ = m ((c : Thread nD τ).loc main_arg3) := W4_arg3 m ρ c

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by keep_host
    _ = m ((c : Thread nD τ).loc main_arg5) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by keep_host
    _ = m ((c : Thread nD τ).loc main_arg5) := W2_arg5 m ρ c
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keep_host
    _ = m ((c : Thread nD τ).loc main_arg5) := W4_arg5 m ρ c

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by keep_host
    _ = m ((c : Thread nD τ).loc main_arg6) := rfl
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by keep_host
    _ = m ((c : Thread nD τ).loc main_arg6) := W2_arg6 m ρ c
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keep_host
    _ = m ((c : Thread nD τ).loc main_arg6) := W4_arg6 m ρ c

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by keep_host
    _ = m ((c : Thread nD τ).loc main_arg7) := rfl
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by keep_host
    _ = m ((c : Thread nD τ).loc main_arg7) := W2_arg7 m ρ c
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keep_host
    _ = m ((c : Thread nD τ).loc main_arg7) := W4_arg7 m ρ c

end Cert.KernelIdeal.Bridge

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.EdgeSpec.lean ====
/-
  The edge-weighting step as one function of whole arrays.  Each of the 4,000,000 edges carries a weight (a column
  [4000000, 1]) and a gathered embedding row (a row of [4000000, 64]); the step multiplies every entry of edge e's row by
  edge e's weight:
      (weight * rows)(e, k) = weight(e, 0) * rows(e, k).
  A kernel region computes it 8000 edges at a time; this file fixes the whole-array function and reads one block's
  stored value at an index of the block.
-/
import proofs.«130716_j31147102830630_2_alg».proof.Proof.Gen.KernelIdeal.Skeleton
import proofs.«130716_j31147102830630_2_alg».proof.Proof.LibLayout3

noncomputable section

namespace Cert.KernelIdeal.Bridge

open Cert.KernelIdeal Cert.KernelIdeal.Gen Idealize.ShloMosaic Idealize.ShloMosaic.ValueIdx

/-- The weight column's index for edge (e, k): (e, 0). -/
def colIdx (i : S4000000x64.Idx) : S4000000x1.Idx := fun a => match a with
  | ⟨0, _⟩ => ⟨(i 0).val, (i 0).isLt⟩
  | ⟨1, _⟩ => ⟨0, Nat.zero_lt_one⟩

/-- Every gathered row scaled by its edge's weight. -/
def edgeW (x0 : S4000000x1.Idx → EReal) (x1 : S4000000x64.Idx → EReal) : S4000000x64.Idx → EReal :=
  fun i => x0 (colIdx i) * x1 i

/-- One entry of the weight column times one entry of the rows. -/
def prodAt (x0 : S4000000x1.Idx → EReal) (x1 : S4000000x64.Idx → EReal) (i0 : S4000000x1.Idx) (i1 : S4000000x64.Idx) : EReal :=
  x0 i0 * x1 i1

theorem edgeW_apply (x0 : S4000000x1.Idx → EReal) (x1 : S4000000x64.Idx → EReal) (i : S4000000x64.Idx) :
    edgeW x0 x1 i = prodAt x0 x1 (colIdx i) i := rfl

/-- The same inside one block of 8000 edges. -/
def colOf (j : S8000x64.Idx) : S8000x1.Idx := fun a => match a with
  | ⟨0, _⟩ => ⟨(j 0).val, (j 0).isLt⟩
  | ⟨1, _⟩ => ⟨0, Nat.zero_lt_one⟩

theorem hz : (![0, 0] : Fin 2 → Nat) = fun _ => 0 := funext fun a => by fin_cases a <;> rfl

/-- A block's product of the broadcast weight column with the rows, entry by entry. -/
theorem blockProd_apply (x0 : Vec Ideal S8000x1 .f32) (x1 : Vec Ideal S8000x64 .f32) (j : S8000x64.Idx) :
    (broadcastTo S8000x64 (shapeCast S8000x1 x0 shapeCasts_S8000x1_S8000x1) broadcasts_S8000x1_S8000x64) j
        * (shapeCast S8000x64 x1 shapeCasts_S8000x64_S8000x64) j = x0 (colOf j) * x1 j := by
  obtain ⟨p, q, rfl⟩ : ∃ (p : Fin 8000) (q : Fin 64), j = ix2 p q := ⟨j 0, j 1, eq_ix2 j⟩
  rw [shapeCast_self, shapeCast_self, Cert.LibLayout3.broadcastTo_a1_ab_apply]
  refine congrArg (fun t => x0 t * x1 (ix2 p q)) ?_
  funext a
  match a with
  | ⟨0, _⟩ => rfl
  | ⟨1, _⟩ => rfl

theorem pay0_apply (x0 : Vec Ideal S8000x1 .f32) (x1 : Vec Ideal S8000x64 .f32) (j : S8000x64.Idx) :
    k0_pay1 (F := Ideal) x0 x1 j = x0 (colOf j) * x1 j := by
  unfold k0_pay1; exact blockProd_apply x0 x1 j

theorem pay1_edge_apply (x0 : Vec Ideal S8000x1 .f32) (x1 : Vec Ideal S8000x64 .f32) (j : S8000x64.Idx) :
    k1_pay1 (F := Ideal) x0 x1 j = x0 (colOf j) * x1 j := by
  unfold k1_pay1; exact blockProd_apply x0 x1 j

theorem pay2_edge_apply (x0 : Vec Ideal S8000x1 .f32) (x1 : Vec Ideal S8000x64 .f32) (j : S8000x64.Idx) :
    k2_pay1 (F := Ideal) x0 x1 j = x0 (colOf j) * x1 j := by
  unfold k2_pay1; exact blockProd_apply x0 x1 j

end Cert.KernelIdeal.Bridge

end
-- ==== Proof.EdgeRegion0.lean ====
/-
  Region 0: the array the edge-weighting kernel leaves.  The grid has 500 points; point t stages edges
  8000 t .. 8000 t + 7999 of the weight column and of the gathered rows and writes back the same edges of the result.
  So what point t writes back is its block of the whole-array product, the 500 blocks cover the array (edge e lies in
  block e / 8000), and the array ends holding the product of the arrays the region found.  The weight column, an input,
  is left as found.
-/
import proofs.«130716_j31147102830630_2_alg».proof.Proof.Gen.KernelIdeal.Frame
import proofs.«130716_j31147102830630_2_alg».proof.Proof.EdgeSpec
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three windows' block indices at point t: block t on the edge axis, block 0 across. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed0_eq (c : Dev nD) (t : Fin cfg0.N) :
    (dat0 V c).flushed 2 t = ((cfg0.win 2).blk t).view.read (Elt Ideal) (edgeW (V c main_v1) (V c main_v8)) := by
  show (cfg0.win 2).cut (grid0.coords t) ((dat0 V c).after 2 t) = _
  rw [after0_2]
  unfold out0_2
  rw [View.canon_unit_zero hz]
  simp only [View.ld_unit_zero (S := S8000x1) hz, View.ld_unit_zero (S := S8000x64) hz]
  obtain ⟨e0, e1, e2, e3, e4, e5⟩ := idx_facts0 t
  funext j
  show k0_pay1 (F := Ideal) (iblk0 V c 0 t) (iblk0 V c 1 t) j = edgeW (V c main_v1) (V c main_v8) (((cfg0.win 2).blk t).view.emb j)
  refine (pay0_apply _ _ _).trans ?_
  have h0 : ((cfg0.win 0).blk t).view.emb (colOf j) = colIdx (((cfg0.win 2).blk t).view.emb j) := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 1 + 1 * 0 = 0; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 64 + 1 * (j 1).val = win0_2.index t (1 : Fin 2) * 64 + 1 * (j 1).val; omega
  show prodAt (V c main_v1) (V c main_v8) (((cfg0.win 0).blk t).view.emb (colOf j)) (((cfg0.win 1).blk t).view.emb j)
     = edgeW (V c main_v1) (V c main_v8) (((cfg0.win 2).blk t).view.emb j)
  rw [h0, h1, edgeW_apply]

/-- An index of the result array lies in point t's block iff each coordinate lies in the block's range. -/
theorem mem_blk0 (t : Fin cfg0.N) (i : S4000000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v9).slice (win0_2.rect t)).set ↔ _
  rw [View.set_slice_whole, Rect.mem_set_unit]
  exact Iff.rfl

/-- Edge e lies in the block of point e / 8000. -/
theorem cover0 (i : S4000000x64.Idx) : ∃ t : Fin cfg0.N, (cfg0.win 2).flush t = true ∧ i ∈ ((cfg0.win 2).blk t).view.set := by
  have hi0 : (i 0).val < 4000000 := (i 0).isLt
  have hi1 : (i 1).val < 64 := (i 1).isLt
  have hN : cfg0.N = 500 := N_0
  obtain ⟨t, ht⟩ : ∃ t : Fin cfg0.N, t.val = (i 0).val / 8000 := ⟨⟨(i 0).val / 8000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- The result array after the region: the product of the arrays the region found. -/
theorem final0 (c : Dev nD) : (dat0 V c).arrAt 2 cfg0.N = edgeW (V c main_v1) (V c main_v8) :=
  (dat0 V c).arrAt_eq_of_cover 2 (edgeW (V c main_v1) (V c main_v8)) (fun t _ => flushed0_eq V c t) cover0

/-- The weight column is an input: the region leaves it as found. -/
theorem kept0_col (c : Dev nD) : (dat0 V c).arrAt 0 cfg0.N = V c main_v1 :=
  ((dat0 V c).arrAt_in 0 rfl _).trans (A_eq0 V c 0)

end Cert.KernelIdeal.Bridge

end
-- ==== Proof.EdgeRegion1.lean ====
/-
  Region 1: the array the edge-weighting kernel leaves.  The grid has 500 points; point t stages edges
  8000 t .. 8000 t + 7999 of the weight column and of the gathered rows and writes back the same edges of the result.
  So what point t writes back is its block of the whole-array product, the 500 blocks cover the array (edge e lies in
  block e / 8000), and the array ends holding the product of the arrays the region found.  The weight column, an input,
  is left as found.
-/
import proofs.«130716_j31147102830630_2_alg».proof.Proof.Gen.KernelIdeal.Frame
import proofs.«130716_j31147102830630_2_alg».proof.Proof.EdgeSpec
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three windows' block indices at point t: block t on the edge axis, block 0 across. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the product of the arrays as the region finds them. -/
theorem flushed1_eq (c : Dev nD) (t : Fin cfg1.N) :
    (dat1 V c).flushed 2 t = ((cfg1.win 2).blk t).view.read (Elt Ideal) (edgeW (V c main_v1) (V c main_v20)) := by
  show (cfg1.win 2).cut (grid1.coords t) ((dat1 V c).after 2 t) = _
  rw [after1_2]
  unfold out1_2
  rw [View.canon_unit_zero hz]
  simp only [View.ld_unit_zero (S := S8000x1) hz, View.ld_unit_zero (S := S8000x64) hz]
  obtain ⟨e0, e1, e2, e3, e4, e5⟩ := idx_facts1 t
  funext j
  show k1_pay1 (F := Ideal) (iblk1 V c 0 t) (iblk1 V c 1 t) j = edgeW (V c main_v1) (V c main_v20) (((cfg1.win 2).blk t).view.emb j)
  refine (pay1_edge_apply _ _ _).trans ?_
  have h0 : ((cfg1.win 0).blk t).view.emb (colOf j) = colIdx (((cfg1.win 2).blk t).view.emb j) := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 1 + 1 * 0 = 0; omega
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 64 + 1 * (j 1).val = win1_2.index t (1 : Fin 2) * 64 + 1 * (j 1).val; omega
  show prodAt (V c main_v1) (V c main_v20) (((cfg1.win 0).blk t).view.emb (colOf j)) (((cfg1.win 1).blk t).view.emb j)
     = edgeW (V c main_v1) (V c main_v20) (((cfg1.win 2).blk t).view.emb j)
  rw [h0, h1, edgeW_apply]

/-- An index of the result array lies in point t's block iff each coordinate lies in the block's range. -/
theorem mem_blk1 (t : Fin cfg1.N) (i : S4000000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v21).slice (win1_2.rect t)).set ↔ _
  rw [View.set_slice_whole, Rect.mem_set_unit]
  exact Iff.rfl

/-- Edge e lies in the block of point e / 8000. -/
theorem cover1 (i : S4000000x64.Idx) : ∃ t : Fin cfg1.N, (cfg1.win 2).flush t = true ∧ i ∈ ((cfg1.win 2).blk t).view.set := by
  have hi0 : (i 0).val < 4000000 := (i 0).isLt
  have hi1 : (i 1).val < 64 := (i 1).isLt
  have hN : cfg1.N = 500 := N_1
  obtain ⟨t, ht⟩ : ∃ t : Fin cfg1.N, t.val = (i 0).val / 8000 := ⟨⟨(i 0).val / 8000, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- The result array after the region: the product of the arrays the region found. -/
theorem final1 (c : Dev nD) : (dat1 V c).arrAt 2 cfg1.N = edgeW (V c main_v1) (V c main_v20) :=
  (dat1 V c).arrAt_eq_of_cover 2 (edgeW (V c main_v1) (V c main_v20)) (fun t _ => flushed1_eq V c t) cover1

/-- The weight column is an input: the region leaves it as found. -/
theorem kept1_col (c : Dev nD) : (dat1 V c).arrAt 0 cfg1.N = V c main_v1 :=
  ((dat1 V c).arrAt_in 0 rfl _).trans (A_eq1 V c 0)

end Cert.KernelIdeal.Bridge

end
-- ==== Proof.EdgeRegion2.lean ====
/-
  Region 2: the array the edge-weighting kernel leaves.  The grid has 500 points; point t stages edges
  8000 t .. 8000 t + 7999 of the weight column and of the gathered rows and writes back the same edges of the result.
  So what point t writes back is its block of the whole-array product, the 500 blocks cover the array (edge e lies in
  block e / 8000), and the array ends holding the product of the arrays the region found.  The weight column, an input,
  is left as found.
-/
import proofs.«130716_j31147102830630_2_alg».proof.Proof.Gen.KernelIdeal.Frame
import proofs.«130716_j31147102830630_2_alg».proof.Proof.EdgeSpec
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three windows' block indices at point t: block t on the edge axis, block 0 across. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the region finds them. -/
theorem flushed2_eq (c : Dev nD) (t : Fin cfg2.N) :
    (dat2 V c).flushed 2 t = ((cfg2.win 2).blk t).view.read (Elt Ideal) (edgeW (V c main_v1) (V c main_v32)) := by
  show (cfg2.win 2).cut (grid2.coords t) ((dat2 V c).after 2 t) = _
  rw [after2_2]
  unfold out2_2
  rw [View.canon_unit_zero hz]
  simp only [View.ld_unit_zero (S := S8000x1) hz, View.ld_unit_zero (S := S8000x64) hz]
  obtain ⟨e0, e1, e2, e3, e4, e5⟩ := idx_facts2 t
  funext j
  show k2_pay1 (F := Ideal) (iblk2 V c 0 t) (iblk2 V c 1 t) j = edgeW (V c main_v1) (V c main_v32) (((cfg2.win 2).blk t).view.emb j)
  refine (pay2_edge_apply _ _ _).trans ?_
  have h0 : ((cfg2.win 0).blk t).view.emb (colOf j) = colIdx (((cfg2.win 2).blk t).view.emb j) := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 1 + 1 * 0 = 0; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 64 + 1 * (j 1).val = win2_2.index t (1 : Fin 2) * 64 + 1 * (j 1).val; omega
  show prodAt (V c main_v1) (V c main_v32) (((cfg2.win 0).blk t).view.emb (colOf j)) (((cfg2.win 1).blk t).view.emb j)
     = edgeW (V c main_v1) (V c main_v32) (((cfg2.win 2).blk t).view.emb j)
  rw [h0, h1, edgeW_apply]

/-- An index of the result array lies in point t's block iff each coordinate lies in the block's range. -/
theorem mem_blk2 (t : Fin cfg2.N) (i : S4000000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v33).slice (win2_2.rect t)).set ↔ _
  rw [View.set_slice_whole, Rect.mem_set_unit]
  exact Iff.rfl

/-- Edge e lies in the block of point e / 8000. -/
theorem cover2 (i : S4000000x64.Idx) : ∃ t : Fin cfg2.N, (cfg2.win 2).flush t = true ∧ i ∈ ((cfg2.win 2).blk t).view.set := by
  have hi0 : (i 0).val < 4000000 := (i 0).isLt
  have hi1 : (i 1).val < 64 := (i 1).isLt
  have hN : cfg2.N = 500 := N_2
  obtain ⟨t, ht⟩ : ∃ t : Fin cfg2.N, t.val = (i 0).val / 8000 := ⟨⟨(i 0).val / 8000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 64 ≤ (i 1).val ∧ (i 1).val < win2_2.index t (1 : Fin 2) * 64 + 64; omega

/-- The result array after the region: the product of the arrays the region found. -/
theorem final2 (c : Dev nD) : (dat2 V c).arrAt 2 cfg2.N = edgeW (V c main_v1) (V c main_v32) :=
  (dat2 V c).arrAt_eq_of_cover 2 (edgeW (V c main_v1) (V c main_v32)) (fun t _ => flushed2_eq V c t) cover2

/-- The weight column is an input: the region leaves it as found. -/
theorem kept2_col (c : Dev nD) : (dat2 V c).arrAt 0 cfg2.N = V c main_v1 :=
  ((dat2 V c).arrAt_in 0 rfl _).trans (A_eq2 V c 0)

end Cert.KernelIdeal.Bridge

end
-- ==== Proof.BprLoss.lean ====
/-
  The BPR loss with its L2 regulariser as ONE function of the six gathered [4096, 64] arrays, over the extended reals.

  For a batch of 4096 triples (user u, positive item p, negative item n) with propagated embeddings ue, pe, ne and raw
  embeddings uo, po, no (rows of width 64):
      loss = (1/4096) * sum_r softplus(<ue_r, ne_r> - <ue_r, pe_r>)
             + w * ( (1/2) * (|uo|^2 + |po|^2 + |no|^2) / 4096 ),
  where softplus z = max(z, 0) + log1p(exp(-|z - 0|)), guarded by a test "z - 0 differs from itself" that never fires on
  the extended reals, and w, 1/2, 4096 are kept as the float words both programs print.  Both programs compute exactly
  this; they differ in how the sums are arranged (rows then columns with unit axes kept, against one sum over all
  entries) and in how the sign of |z| is taken (0 - a against -a).  This file fixes the function and the generic facts
  about reading those arrangements at an index.
-/
import Idealize.ShloMosaic.Lib.ValueIdx
import Idealize.ShloMosaic.Lib.Pipeline.Value
import Idealize.ShloMosaic.PureOps.Ideal.Laws
import proofs.«130716_j31147102830630_2_alg».proof.Proof.LibLayout3

open scoped BigOperators

noncomputable section

namespace Cert.Bpr

open Idealize.ShloMosaic Idealize.ShloMosaic.ValueIdx

/-- The batch of embedding rows: 4096 rows of width 64. -/
abbrev SB : Shape := ⟨2, ![4096, 64]⟩

/-- The sum of the squares of every entry, rows outermost. -/
def sqSum (x : SB.Idx → EReal) : EReal := ∑ r : Fin 4096, ∑ k : Fin 64, x (ix2 r k) * x (ix2 r k)

/-- The inner product of row r of x with row r of y. -/
def rowDot (x y : SB.Idx → EReal) (r : Fin 4096) : EReal := ∑ k : Fin 64, x (ix2 r k) * y (ix2 r k)

/-- log(1 + e^z) in the stable form both programs use, with its (dead) not-a-number guard. -/
def softplus (z : EReal) : EReal :=
  Scalar.select (Ideal.cmp .one (z - 0) (z - 0)) (z + 0)
    (max z 0 + Ideal.log1p (Ideal.exp (-(max (z - 0) (-(z - 0))))))

/-- The loss: the mean softplus of the score differences plus the weighted regulariser. -/
def loss (ue pe ne uo po no : SB.Idx → EReal) : EReal :=
  Ideal.div (∑ r : Fin 4096, softplus (rowDot ue ne r - rowDot ue pe r)) (Ideal.ofBits .f32 0x45800000#32)
    + Ideal.ofBits .f32 0x38D1B717#32
        * Ideal.div (Ideal.ofBits .f32 0x3F000000#32 * (sqSum uo + sqSum po + sqSum no)) (Ideal.ofBits .f32 0x45800000#32)

/-- On the extended reals 0 - a is -a. -/
theorem zero_sub_ereal (a : EReal) : (0 : EReal) - a = -a := by rw [sub_eq_add_neg, zero_add]

/-! ## The kernel's arrangement: a row sum kept as a column, then the column summed and kept as a 1-by-1 array -/

/-- The sum over the columns of a [4096, 64] array, kept as a [4096, 1] column, read at row r. -/
theorem rowSum_col (w : FVec Ideal ⟨2, ![4096, 64]⟩ .f32) (h : Shape.Reduces ⟨2, ![4096, 64]⟩ [1] ⟨1, ![4096]⟩)
    (hc : (⟨1, ![4096]⟩ : Shape).ShapeCasts ⟨2, ![4096, 1]⟩) (hacc : (0x00000000#32 : BitVec 32) = 0x00000000#32)
    (r : Fin 4096) (u : Fin 1) :
    shapeCast ⟨2, ![4096, 1]⟩
        (multiReduction (s := ⟨2, ![4096, 64]⟩) .add ([1] : List (Fin 2)) ⟨1, ![4096]⟩ w 0x00000000#32 h (.inl rfl) hacc) hc (ix2 r u)
      = ∑ k : Fin 64, w (ix2 r k) :=
  (Cert.LibLayout3.shapeCast_a_a1_apply _ hc r u).trans (Cert.LibLayout3.sum_ab_last w h hacc r)

/-- The sum over the rows of a [4096, 1] column, kept as a [1, 1] array, read at its one index. -/
theorem colSum_one (v : FVec Ideal ⟨2, ![4096, 1]⟩ .f32) (h : Shape.Reduces ⟨2, ![4096, 1]⟩ [0] ⟨1, ![1]⟩)
    (hc : (⟨1, ![1]⟩ : Shape).ShapeCasts ⟨2, ![1, 1]⟩) (hacc : (0x00000000#32 : BitVec 32) = 0x00000000#32)
    (a u : Fin 1) :
    shapeCast ⟨2, ![1, 1]⟩
        (multiReduction (s := ⟨2, ![4096, 1]⟩) .add ([0] : List (Fin 2)) ⟨1, ![1]⟩ v 0x00000000#32 h (.inl rfl) hacc) hc (ix2 a u)
      = ∑ r : Fin 4096, v (ix2 r (0 : Fin 1)) := by
  refine (Cert.LibLayout3.shapeCast_a_a1_apply _ hc a u).trans ?_
  refine (Cert.LibLayout3.sum_a1_first v h hacc a).trans ?_
  have ha : a = 0 := Subsingleton.elim _ _
  rw [ha]

/-! ## The reference's arrangement: one sum over every entry, or over one axis, from a zero initial value -/

/-- The host's sum of a [4096, 64] array over both axes from the zero word: rows outermost. -/
theorem hostSum_all (x : FVec Ideal ⟨2, ![4096, 64]⟩ .f32) (h : (⟨2, ![4096, 64]⟩ : Shape).ReducesTo [0, 1] ⟨0, ![]⟩)
    (i : (⟨0, ![]⟩ : Shape).Idx) :
    Ideal.hostReduceAdd h x (Ideal.ofBits .f32 0x00000000#32) i = ∑ r : Fin 4096, ∑ k : Fin 64, x (ix2 r k) := by
  rw [Ideal.hostReduceAdd_total h (fun b => b.elim0) x _ i, Ideal.ofBits_zero_f32, zero_add]
  exact sum_idx2 x

/-- The host's sum of a [4096, 64] array over its columns from the zero word, at row r. -/
theorem hostSum_row (x : FVec Ideal ⟨2, ![4096, 64]⟩ .f32) (h' : (⟨2, ![4096, 64]⟩ : Shape).ReducesTo [1] ⟨1, ![4096]⟩)
    (h : Shape.Reduces ⟨2, ![4096, 64]⟩ [1] ⟨1, ![4096]⟩) (r : Fin 4096) :
    Ideal.hostReduceAdd h' x (Ideal.ofBits .f32 0x00000000#32) (ix1 r) = ∑ k : Fin 64, x (ix2 r k) := by
  rw [Ideal.hostReduceAdd_single h' h x _ (ix1 r), Ideal.ofBits_zero_f32, zero_add]
  exact Finset.sum_congr rfl fun k _ => congrArg x (Cert.LibLayout3.lift_ab_last h r k)

/-- The host's sum of a [4096] vector from the zero word. -/
theorem hostSum_vec (x : FVec Ideal ⟨1, ![4096]⟩ .f32) (h : (⟨1, ![4096]⟩ : Shape).ReducesTo [0] ⟨0, ![]⟩)
    (i : (⟨0, ![]⟩ : Shape).Idx) :
    Ideal.hostReduceAdd h x (Ideal.ofBits .f32 0x00000000#32) i = ∑ r : Fin 4096, x (ix1 r) := by
  rw [Ideal.hostReduceAdd_total h (fun b => b.elim0) x _ i, Ideal.ofBits_zero_f32, zero_add]
  exact (Equiv.sum_comp (⟨fun r => ix1 r, fun j => j 0, fun _ => rfl, fun j => (eq_ix1 j).symm⟩ : Fin 4096 ≃ (⟨1, ![4096]⟩ : Shape).Idx) x).symm

end Cert.Bpr

end
-- ==== Proof.LossKernel.lean ====
/-
  The loss kernel's body at the ideal values.  Its one store writes a [1, 1] array computed from six whole [4096, 64]
  blocks: three squared norms (each a row sum kept as a column, then the column summed), two columns of row inner
  products, their difference through softplus, a mean, and a weighted sum.  Read at its one index the stored value is
  the loss function of Cert.Bpr, with the first three blocks the propagated embeddings (user, positive, negative) and
  the last three the raw ones.
-/
import proofs.«130716_j31147102830630_2_alg».proof.Proof.Gen.KernelIdeal.Skeleton
import proofs.«130716_j31147102830630_2_alg».proof.Proof.BprLoss

open scoped BigOperators

noncomputable section

namespace Cert.KernelIdeal.Bridge

open Cert.KernelIdeal Cert.KernelIdeal.Gen Idealize.ShloMosaic Idealize.ShloMosaic.ValueIdx Cert.Bpr

/-- The product of two blocks (each first cast to its own shape), entry by entry. -/
theorem pay5_apply (x y : Vec Ideal S4096x64 .f32) (r : Fin 4096) (k : Fin 64) :
    k3_pay5 (F := Ideal) x y (ix2 r k) = x (ix2 r k) * y (ix2 r k) := by
  unfold k3_pay5 k3_pay3
  show (shapeCast S4096x64 x shapeCasts_S4096x64_S4096x64) (ix2 r k) * (shapeCast S4096x64 y shapeCasts_S4096x64_S4096x64) (ix2 r k) = _
  rw [shapeCast_self, shapeCast_self]

/-- The column of row inner products of two blocks. -/
theorem pay4_apply (x y : Vec Ideal S4096x64 .f32) (r : Fin 4096) (u : Fin 1) :
    k3_pay4 (F := Ideal) x y (ix2 r u) = rowDot x y r := by
  unfold k3_pay4 k3_pay3
  refine (rowSum_col _ reduces_S4096x64_S4096 shapeCasts_S4096_S4096x1 rfl r u).trans ?_
  unfold rowDot
  refine Finset.sum_congr rfl fun k _ => ?_
  show (shapeCast S4096x64 x shapeCasts_S4096x64_S4096x64) (ix2 r k) * (shapeCast S4096x64 y shapeCasts_S4096x64_S4096x64) (ix2 r k) = _
  rw [shapeCast_self, shapeCast_self]

/-- The squared norm of a block as the kernel arranges it: rows summed into a column, the column summed. -/
theorem sq_total (a : Vec Ideal S4096x64 .f32) (p q : Fin 1) :
    shapeCast S1x1 (multiReduction (F := Ideal) .add [0] S1
        (shapeCast S4096x1 (multiReduction (F := Ideal) .add [1] S4096
          (mulf (shapeCast S4096x64 a shapeCasts_S4096x64_S4096x64) (shapeCast S4096x64 a shapeCasts_S4096x64_S4096x64))
          0x00000000#32 reduces_S4096x64_S4096 (.inl rfl) rfl) shapeCasts_S4096_S4096x1)
        0x00000000#32 reduces_S4096x1_S1 (.inl rfl) rfl) shapeCasts_S1_S1x1 (ix2 p q) = sqSum a := by
  refine (colSum_one _ reduces_S4096x1_S1 shapeCasts_S1_S1x1 rfl p q).trans ?_
  unfold sqSum
  refine Finset.sum_congr rfl fun r _ => ?_
  refine (rowSum_col _ reduces_S4096x64_S4096 shapeCasts_S4096_S4096x1 rfl r 0).trans ?_
  refine Finset.sum_congr rfl fun k _ => ?_
  show (shapeCast S4096x64 a shapeCasts_S4096x64_S4096x64) (ix2 r k) * (shapeCast S4096x64 a shapeCasts_S4096x64_S4096x64) (ix2 r k) = _
  rw [shapeCast_self]

/-- The regulariser: half the three squared norms, over 4096. -/
theorem pay2_apply (a b c : Vec Ideal S4096x64 .f32) (p q : Fin 1) :
    k3_pay2 (F := Ideal) a b c (ix2 p q)
      = Ideal.div (Ideal.ofBits .f32 0x3F000000#32 * (sqSum a + sqSum b + sqSum c)) (Ideal.ofBits .f32 0x45800000#32) := by
  have ha := sq_total a p q
  have hb := sq_total b p q
  have hc := sq_total c p q
  unfold k3_pay2
  show Ideal.div (Ideal.ofBits .f32 0x3F000000#32 * ((_ + _) + _)) (Ideal.ofBits .f32 0x45800000#32) = _
  rw [ha, hb, hc]

/-- The stored value from its three inputs: the mean softplus of the row sums of the third minus the second, plus the
    weight times the first. -/
theorem pay1_apply (v26 : FVec Ideal S1x1 .f32) (v35 : FVec Ideal S4096x1 .f32) (v36 : FVec Ideal S4096x64 .f32) (p q : Fin 1) :
    k3_pay1 (F := Ideal) v26 v35 v36 (ix2 p q)
      = Ideal.div (∑ r : Fin 4096, softplus ((∑ k : Fin 64, v36 (ix2 r k)) - v35 (ix2 r (0 : Fin 1)))) (Ideal.ofBits .f32 0x45800000#32)
        + Ideal.ofBits .f32 0x38D1B717#32 * v26 (ix2 p q) := by
  unfold k3_pay1
  show Ideal.div (shapeCast S1x1 (multiReduction (F := Ideal) .add [0] S1 _ 0x00000000#32 reduces_S4096x1_S1 (.inl rfl) rfl) shapeCasts_S1_S1x1 (ix2 p q)) (Ideal.ofBits .f32 0x45800000#32)
      + Ideal.ofBits .f32 0x38D1B717#32 * v26 (ix2 p q) = _
  refine congrArg (fun t => Ideal.div t (Ideal.ofBits .f32 0x45800000#32) + Ideal.ofBits .f32 0x38D1B717#32 * v26 (ix2 p q)) ?_
  refine (colSum_one _ reduces_S4096x1_S1 shapeCasts_S1_S1x1 rfl p q).trans ?_
  refine Finset.sum_congr rfl fun r _ => ?_
  have hX := rowSum_col v36 reduces_S4096x64_S4096 shapeCasts_S4096_S4096x1 rfl r 0
  unfold softplus
  rw [← hX]
  show Scalar.select (Ideal.cmp .one (_ - Ideal.ofBits .f32 0x00000000#32) (_ - Ideal.ofBits .f32 0x00000000#32)) (_ + Ideal.ofBits .f32 0x00000000#32)
      (max _ (Ideal.ofBits .f32 0x00000000#32) + Ideal.log1p (Ideal.exp (Ideal.ofBits .f32 0x00000000#32 - max (_ - Ideal.ofBits .f32 0x00000000#32) (-(_ - Ideal.ofBits .f32 0x00000000#32))))) = _
  rw [Ideal.ofBits_zero_f32, zero_sub_ereal]
  rfl

/-- The loss kernel's stored array, at its one index, is the loss of the six blocks. -/
theorem loss_payload (ue pe ne uo po no : Vec Ideal S4096x64 .f32) (j : S1x1.Idx) :
    k3_pay1 (F := Ideal) (k3_pay2 uo po no) (k3_pay4 ue pe) (k3_pay5 ue ne) j = loss ue pe ne uo po no := by
  obtain ⟨p, q, rfl⟩ : ∃ (p : Fin 1) (q : Fin 1), j = ix2 p q := ⟨j 0, j 1, eq_ix2 j⟩
  rw [pay1_apply, pay2_apply]
  unfold loss
  refine congrArg (fun t => Ideal.div t (Ideal.ofBits .f32 0x45800000#32) + _) ?_
  refine Finset.sum_congr rfl fun r _ => ?_
  rw [pay4_apply]
  refine congrArg (fun t => softplus (t - rowDot ue pe r)) ?_
  unfold rowDot
  exact Finset.sum_congr rfl fun k _ => pay5_apply ue ne r k

end Cert.KernelIdeal.Bridge

end
-- ==== Proof.LossRegion.lean ====
/-
  Region 3: the array the loss kernel leaves.  The grid has one point, every window's block is its whole array, and the
  body stores one [1, 1] value computed from the six whole input arrays: the loss of Cert.Bpr.  So the result array ends
  holding that loss at its one index.
-/
import proofs.«130716_j31147102830630_2_alg».proof.Proof.Gen.KernelIdeal.Frame
import proofs.«130716_j31147102830630_2_alg».proof.Proof.LossKernel
import proofs.«130716_j31147102830630_2_alg».proof.Proof.EdgeSpec
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem Cert.Bpr
open Idealize.ShloMosaic.Pipeline (Dat)

variable (V : (c : Dev nD) → (b : Ref sig .tc) → Buf (Elt Ideal) ((c : Thread nD τ).loc b))

/-- Every window's block index at the one grid point is (0, 0). -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Window 0's one block is its whole array. -/
theorem iblk3_0 (c : Dev nD) (t : Fin cfg3.N) : iblk3 V c 0 t = V c main_v46 := by
  obtain ⟨a0, b0, a1, b1, a2, b2, a3, b3, a4, b4, a5, b5, a6, b6⟩ := idx_facts3 t
  funext y
  show V c main_v46 (((cfg3.win 0).blk t).view.emb y) = V c main_v46 y
  refine congrArg (V c main_v46) ?_
  funext a; apply Fin.ext
  match a with
  | ⟨0, _⟩ => show win3_0.index t (0 : Fin 2) * 4096 + 1 * (y 0).val = (y 0).val; omega
  | ⟨1, _⟩ => show win3_0.index t (1 : Fin 2) * 64 + 1 * (y 1).val = (y 1).val; omega

/-- Window 1's one block is its whole array. -/
theorem iblk3_1 (c : Dev nD) (t : Fin cfg3.N) : iblk3 V c 1 t = V c main_v55 := by
  obtain ⟨a0, b0, a1, b1, a2, b2, a3, b3, a4, b4, a5, b5, a6, b6⟩ := idx_facts3 t
  funext y
  show V c main_v55 (((cfg3.win 1).blk t).view.emb y) = V c main_v55 y
  refine congrArg (V c main_v55) ?_
  funext a; apply Fin.ext
  match a with
  | ⟨0, _⟩ => show win3_1.index t (0 : Fin 2) * 4096 + 1 * (y 0).val = (y 0).val; omega
  | ⟨1, _⟩ => show win3_1.index t (1 : Fin 2) * 64 + 1 * (y 1).val = (y 1).val; omega

/-- Window 2's one block is its whole array. -/
theorem iblk3_2 (c : Dev nD) (t : Fin cfg3.N) : iblk3 V c 2 t = V c main_v64 := by
  obtain ⟨a0, b0, a1, b1, a2, b2, a3, b3, a4, b4, a5, b5, a6, b6⟩ := idx_facts3 t
  funext y
  show V c main_v64 (((cfg3.win 2).blk t).view.emb y) = V c main_v64 y
  refine congrArg (V c main_v64) ?_
  funext a; apply Fin.ext
  match a with
  | ⟨0, _⟩ => show win3_2.index t (0 : Fin 2) * 4096 + 1 * (y 0).val = (y 0).val; omega
  | ⟨1, _⟩ => show win3_2.index t (1 : Fin 2) * 64 + 1 * (y 1).val = (y 1).val; omega

/-- Window 3's one block is its whole array. -/
theorem iblk3_3 (c : Dev nD) (t : Fin cfg3.N) : iblk3 V c 3 t = V c main_v71 := by
  obtain ⟨a0, b0, a1, b1, a2, b2, a3, b3, a4, b4, a5, b5, a6, b6⟩ := idx_facts3 t
  funext y
  show V c main_v71 (((cfg3.win 3).blk t).view.emb y) = V c main_v71 y
  refine congrArg (V c main_v71) ?_
  funext a; apply Fin.ext
  match a with
  | ⟨0, _⟩ => show win3_3.index t (0 : Fin 2) * 4096 + 1 * (y 0).val = (y 0).val; omega
  | ⟨1, _⟩ => show win3_3.index t (1 : Fin 2) * 64 + 1 * (y 1).val = (y 1).val; omega

/-- Window 4's one block is its whole array. -/
theorem iblk3_4 (c : Dev nD) (t : Fin cfg3.N) : iblk3 V c 4 t = V c main_v78 := by
  obtain ⟨a0, b0, a1, b1, a2, b2, a3, b3, a4, b4, a5, b5, a6, b6⟩ := idx_facts3 t
  funext y
  show V c main_v78 (((cfg3.win 4).blk t).view.emb y) = V c main_v78 y
  refine congrArg (V c main_v78) ?_
  funext a; apply Fin.ext
  match a with
  | ⟨0, _⟩ => show win3_4.index t (0 : Fin 2) * 4096 + 1 * (y 0).val = (y 0).val; omega
  | ⟨1, _⟩ => show win3_4.index t (1 : Fin 2) * 64 + 1 * (y 1).val = (y 1).val; omega

/-- Window 5's one block is its whole array. -/
theorem iblk3_5 (c : Dev nD) (t : Fin cfg3.N) : iblk3 V c 5 t = V c main_v85 := by
  obtain ⟨a0, b0, a1, b1, a2, b2, a3, b3, a4, b4, a5, b5, a6, b6⟩ := idx_facts3 t
  funext y
  show V c main_v85 (((cfg3.win 5).blk t).view.emb y) = V c main_v85 y
  refine congrArg (V c main_v85) ?_
  funext a; apply Fin.ext
  match a with
  | ⟨0, _⟩ => show win3_5.index t (0 : Fin 2) * 4096 + 1 * (y 0).val = (y 0).val; omega
  | ⟨1, _⟩ => show win3_5.index t (1 : Fin 2) * 64 + 1 * (y 1).val = (y 1).val; omega

/-- The loss of the six arrays the region finds, as a [1, 1] array. -/
def lossArr (c : Dev nD) : S1x1.Idx → EReal :=
  fun _ => loss (V c main_v46) (V c main_v55) (V c main_v64) (V c main_v71) (V c main_v78) (V c main_v85)

/-- What the one point writes back is the (whole) block of that array. -/
theorem flushed3_eq (c : Dev nD) (t : Fin cfg3.N) :
    (dat3 V c).flushed 6 t = ((cfg3.win 6).blk t).view.read (Elt Ideal) (lossArr V c) := by
  show (cfg3.win 6).cut (grid3.coords t) ((dat3 V c).after 6 t) = _
  rw [after3_6]
  unfold out3_6
  rw [View.canon_unit_zero hz]
  simp only [View.ld_unit_zero (S := S4096x64) hz]
  rw [iblk3_0, iblk3_1, iblk3_2, iblk3_3, iblk3_4, iblk3_5]
  funext j
  show k3_pay1 (F := Ideal) (k3_pay2 (V c main_v71) (V c main_v78) (V c main_v85)) (k3_pay4 (V c main_v46) (V c main_v55)) (k3_pay5 (V c main_v46) (V c main_v64)) j
      = loss (V c main_v46) (V c main_v55) (V c main_v64) (V c main_v71) (V c main_v78) (V c main_v85)
  exact loss_payload _ _ _ _ _ _ j

/-- An index of the result array lies in the point's block iff each coordinate lies in the block's range. -/
theorem mem_blk3 (t : Fin cfg3.N) (i : S1x1.Idx) :
    i ∈ ((cfg3.win 6).blk t).view.set ↔ ∀ a : Fin 2, win3_6.index t a * S1x1.size a ≤ (i a).val ∧ (i a).val < win3_6.index t a * S1x1.size a + S1x1.size a := by
  show i ∈ ((View.whole main_v86).slice (win3_6.rect t)).set ↔ _
  rw [View.set_slice_whole, Rect.mem_set_unit]
  exact Iff.rfl

/-- The one block covers the array. -/
theorem cover3 (i : S1x1.Idx) : ∃ t : Fin cfg3.N, (cfg3.win 6).flush t = true ∧ i ∈ ((cfg3.win 6).blk t).view.set := by
  have hi0 : (i 0).val < 1 := (i 0).isLt
  have hi1 : (i 1).val < 1 := (i 1).isLt
  obtain ⟨a0, b0, a1, b1, a2, b2, a3, b3, a4, b4, a5, b5, a6, b6⟩ := idx_facts3 t3_0
  refine ⟨t3_0, flush3_6 t3_0, ?_⟩
  rw [mem_blk3]
  intro a
  match a with
  | ⟨0, _⟩ => show win3_6.index t3_0 (0 : Fin 2) * 1 ≤ (i 0).val ∧ (i 0).val < win3_6.index t3_0 (0 : Fin 2) * 1 + 1; omega
  | ⟨1, _⟩ => show win3_6.index t3_0 (1 : Fin 2) * 1 ≤ (i 1).val ∧ (i 1).val < win3_6.index t3_0 (1 : Fin 2) * 1 + 1; omega

/-- The result array after the region: the loss of the arrays the region found. -/
theorem final3 (c : Dev nD) : (dat3 V c).arrAt 6 cfg3.N = lossArr V c :=
  (dat3 V c).arrAt_eq_of_cover 6 (lossArr V c) (fun t _ => flushed3_eq V c t) cover3

end Cert.KernelIdeal.Bridge

end
-- ==== Proof.KernelSpec.lean ====
/-
  The idealized kernel's result as ONE function of the eight argument arrays.

  With E = the user and item embeddings stacked (150000 rows), the program runs three propagation layers
      S_{l+1} = scatter-add over the edges' row indices of ( weight(e) * S_l[col(e)] ),   S_0 = E,
  averages  L = (E + S_1 + S_2 + S_3) / 4,  gathers the batch's rows of L and of the raw embeddings, and takes the BPR
  loss of the six gathered arrays.  The gathers, the scatter-adds, the index fix-ups (a negative index wraps) and the
  additions are host operations; the weighting of each gathered row is a kernel region (its whole-array value is
  `edgeW`), and the loss is a kernel region (its value is Cert.Bpr.loss).  The last host operation reshapes the 1-by-1
  result to a scalar.
-/
import proofs.«130716_j31147102830630_2_alg».proof.KernelIdeal
import proofs.«130716_j31147102830630_2_alg».proof.Proof.EdgeSpec
import proofs.«130716_j31147102830630_2_alg».proof.Proof.BprLoss

noncomputable section

namespace Cert.KernelIdeal.Bridge

open Cert.KernelIdeal Cert.KernelIdeal.Gen Idealize.ShloMosaic Idealize.ShloMosaic.ValueIdx Cert.Bpr

abbrev T_emb : Type := (⟨S150000x64, .f32⟩ : BufTy).Contents (Elt Ideal)
abbrev T_e32 : Type := (⟨S4000000, .i32⟩ : BufTy).Contents (Elt Ideal)
abbrev T_e1 : Type := (⟨S4000000, .i1⟩ : BufTy).Contents (Elt Ideal)
abbrev T_ecol : Type := (⟨S4000000x1, .i32⟩ : BufTy).Contents (Elt Ideal)
abbrev T_b32 : Type := (⟨S4096, .i32⟩ : BufTy).Contents (Elt Ideal)
abbrev T_b1 : Type := (⟨S4096, .i1⟩ : BufTy).Contents (Elt Ideal)
abbrev T_bcol : Type := (⟨S4096x1, .i32⟩ : BufTy).Contents (Elt Ideal)
abbrev T_rows : Type := (⟨S4000000x64, .f32⟩ : BufTy).Contents (Elt Ideal)
abbrev T_batch : Type := (⟨S4096x64, .f32⟩ : BufTy).Contents (Elt Ideal)

variable (a0 : (⟨S100000x64, .f32⟩ : BufTy).Contents (Elt Ideal)) (a1 : (⟨S50000x64, .f32⟩ : BufTy).Contents (Elt Ideal))
  (a2 a3 : T_e32) (a4 : (⟨S4000000, .f32⟩ : BufTy).Contents (Elt Ideal)) (a5 a6 a7 : T_b32)

/-- The stacked embeddings. -/
def allEmb : T_emb :=
  ((fun a b => concatenate S150000x64 0 [⟨S100000x64, a⟩, ⟨S50000x64, b⟩] concatenates_S100000x64_S50000x64_S150000x64_d0) : (⟨S100000x64, .f32⟩ : BufTy).Contents (Elt Ideal) → (⟨S50000x64, .f32⟩ : BufTy).Contents (Elt Ideal) → T_emb) a0 a1

/-- The weights as a column. -/
def wCol : (⟨S4000000x1, .f32⟩ : BufTy).Contents (Elt Ideal) := shapeCast S4000000x1 a4 shapeCasts_S4000000_S4000000x1

/-- An edge-length index array with negative entries wrapped by 150000, as a column. -/
def wrapEdge (x : T_e32) : T_ecol :=
  (broadcastInDim S4000000x1 ![0] bcast_S4000000_S4000000x1_0 : T_e32 → T_ecol)
    ((select : T_e1 → T_e32 → T_e32 → T_e32)
      ((cmpi .slt : T_e32 → T_e32 → T_e1) x ((broadcastInDim S4000000 ![] bcast_S_S4000000 : (⟨S_, .i32⟩ : BufTy).Contents (Elt Ideal) → T_e32) (constantI S_ 32 0#32)))
      ((addi : T_e32 → T_e32 → T_e32) x ((broadcastInDim S4000000 ![] bcast_S_S4000000 : (⟨S_, .i32⟩ : BufTy).Contents (Elt Ideal) → T_e32) (constantI S_ 32 150000#32)))
      x)

/-- The edges' row indices as a column. -/
def rowCol (x : T_e32) : T_ecol := (broadcastInDim S4000000x1 ![0] bcast_S4000000_S4000000x1_0 : T_e32 → T_ecol) x

/-- The all-zero node table. -/
def zeroEmb : T_emb :=
  (broadcastInDim S150000x64 ![] bcast_S_S150000x64 : (⟨S_, .f32⟩ : BufTy).Contents (Elt Ideal) → T_emb) (constant (F := Ideal) S_ .f32 0x00000000#32)

/-- The rows of a node table at the edges' column indices. -/
def gatherEdges (cur : T_emb) : T_rows :=
  ((fun x i => Host.gather gather_S150000x64_S4000000x1_S4000000x64_1_0_n_n_0_1_164 x i) : T_emb → T_ecol → T_rows) cur (wrapEdge a3)

/-- Weighted rows added into the node table at the edges' row indices. -/
def scatterEdges (w : T_rows) : T_emb :=
  ((fun x i u => Host.scatterAdd (F := Ideal) (φ := .f32) scatter_S150000x64_S4000000x1_S4000000x64_1_0_0_1 x i u) : T_emb → T_ecol → T_rows → T_emb) zeroEmb (rowCol a2) w

/-- One propagation layer. -/
def layerK (cur : T_emb) : T_emb := scatterEdges a2 (edgeW (wCol a4) (gatherEdges a3 cur))

def s1K : T_emb := layerK a2 a3 a4 (allEmb a0 a1)
def s2K : T_emb := layerK a2 a3 a4 (s1K a0 a1 a2 a3 a4)
def s3K : T_emb := layerK a2 a3 a4 (s2K a0 a1 a2 a3 a4)
def acc1K : T_emb := (addf (F := Ideal) (φ := .f32) : T_emb → T_emb → T_emb) (allEmb a0 a1) (s1K a0 a1 a2 a3 a4)
def acc2K : T_emb := (addf (F := Ideal) (φ := .f32) : T_emb → T_emb → T_emb) (acc1K a0 a1 a2 a3 a4) (s2K a0 a1 a2 a3 a4)
def acc3K : T_emb := (addf (F := Ideal) (φ := .f32) : T_emb → T_emb → T_emb) (acc2K a0 a1 a2 a3 a4) (s3K a0 a1 a2 a3 a4)

/-- The averaged embeddings. -/
def lightK : T_emb :=
  (Host.divf (F := Ideal) (φ := .f32) : T_emb → T_emb → T_emb) (acc3K a0 a1 a2 a3 a4)
    ((broadcastInDim S150000x64 ![] bcast_S_S150000x64 : (⟨S_, .f32⟩ : BufTy).Contents (Elt Ideal) → T_emb) (constant (F := Ideal) S_ .f32 0x40800000#32))

/-- A batch index array with negative entries wrapped by n, as a column. -/
def wrapBatch (n : BitVec 32) (x : T_b32) : T_bcol :=
  (broadcastInDim S4096x1 ![0] bcast_S4096_S4096x1_0 : T_b32 → T_bcol)
    ((select : T_b1 → T_b32 → T_b32 → T_b32)
      ((cmpi .slt : T_b32 → T_b32 → T_b1) x ((broadcastInDim S4096 ![] bcast_S_S4096 : (⟨S_, .i32⟩ : BufTy).Contents (Elt Ideal) → T_b32) (constantI S_ 32 0#32)))
      ((addi : T_b32 → T_b32 → T_b32) x ((broadcastInDim S4096 ![] bcast_S_S4096 : (⟨S_, .i32⟩ : BufTy).Contents (Elt Ideal) → T_b32) (constantI S_ 32 n)))
      x)

/-- An item index shifted past the 100000 users. -/
def itemShift (x : T_b32) : T_b32 :=
  (addi : T_b32 → T_b32 → T_b32) ((broadcastInDim S4096 ![] bcast_S_S4096 : (⟨S_, .i32⟩ : BufTy).Contents (Elt Ideal) → T_b32) (constantI S_ 32 100000#32)) x

def gatherLight (L : T_emb) (i : T_bcol) : T_batch :=
  ((fun x i => Host.gather gather_S150000x64_S4096x1_S4096x64_1_0_n_n_0_1_164 x i) : T_emb → T_bcol → T_batch) L i
def gatherUser (i : T_bcol) : T_batch :=
  ((fun x i => Host.gather gather_S100000x64_S4096x1_S4096x64_1_0_n_n_0_1_164 x i) : (⟨S100000x64, .f32⟩ : BufTy).Contents (Elt Ideal) → T_bcol → T_batch) a0 i
def gatherItem (i : T_bcol) : T_batch :=
  ((fun x i => Host.gather gather_S50000x64_S4096x1_S4096x64_1_0_n_n_0_1_164 x i) : (⟨S50000x64, .f32⟩ : BufTy).Contents (Elt Ideal) → T_bcol → T_batch) a1 i

/-- The loss of the six gathered arrays. -/
def lossK : EReal :=
  loss (gatherLight (lightK a0 a1 a2 a3 a4) (wrapBatch 150000#32 a5))
       (gatherLight (lightK a0 a1 a2 a3 a4) (wrapBatch 150000#32 (itemShift a6)))
       (gatherLight (lightK a0 a1 a2 a3 a4) (wrapBatch 150000#32 (itemShift a7)))
       (gatherUser a0 (wrapBatch 100000#32 a5))
       (gatherItem a1 (wrapBatch 50000#32 a6))
       (gatherItem a1 (wrapBatch 50000#32 a7))

end Cert.KernelIdeal.Bridge

end
-- ==== Proof.Stages.lean ====
/-
  The buffer contents along the run, boundary by boundary, at the ideal values.  Each lemma reads one buffer at one
  boundary as a function of the eight launch arrays: a host stretch applies its operations to what the previous boundary
  holds; a region leaves its result array at the whole-array function of its input arrays and its inputs as found.  The
  last lemma reads the result buffer at the end of the run: the scalar holding the loss `lossK` of the launch arrays.
-/
import proofs.«130716_j31147102830630_2_alg».proof.Proof.Gen.KernelIdeal.Frame
import proofs.«130716_j31147102830630_2_alg».proof.Proof.Keep
import proofs.«130716_j31147102830630_2_alg».proof.Proof.EdgeRegion0
import proofs.«130716_j31147102830630_2_alg».proof.Proof.EdgeRegion1
import proofs.«130716_j31147102830630_2_alg».proof.Proof.EdgeRegion2
import proofs.«130716_j31147102830630_2_alg».proof.Proof.LossRegion
import proofs.«130716_j31147102830630_2_alg».proof.Proof.KernelSpec
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Cert.Bpr

variable (m : (ℓ : Loc nD τ sig) → Buf (Elt Ideal) ℓ) (ρ : Dev nD → PrngReg) (c : Dev nD)

/-! ## Before region 0 -/

theorem W1_v0 : W1 m ρ c (Proc.devRef .tc main_v0) = allEmb (m ((c : Thread nD τ).loc main_arg0)) (m ((c : Thread nD τ).loc main_arg1)) := by
  show StableHlo.after hostOps0 (W0 m ρ c) (Proc.devRef .tc main_v0) = _
  dsimp only [hostOps0]
  after_results
  try rfl

theorem W1_v1 : W1 m ρ c (Proc.devRef .tc main_v1) = wCol (m ((c : Thread nD τ).loc main_arg4)) := by
  show StableHlo.after hostOps0 (W0 m ρ c) (Proc.devRef .tc main_v1) = _
  dsimp only [hostOps0]
  after_results
  try rfl

theorem W1_v8 : W1 m ρ c (Proc.devRef .tc main_v8) = gatherEdges (m ((c : Thread nD τ).loc main_arg3)) (allEmb (m ((c : Thread nD τ).loc main_arg0)) (m ((c : Thread nD τ).loc main_arg1))) := by
  show StableHlo.after hostOps0 (W0 m ρ c) (Proc.devRef .tc main_v8) = _
  dsimp only [hostOps0]
  after_results
  try rfl

/-! ## After region 0 -/

theorem W2_v9 : W2 m ρ c (Proc.devRef .tc main_v9) = edgeW (wCol (m ((c : Thread nD τ).loc main_arg4))) (gatherEdges (m ((c : Thread nD τ).loc main_arg3)) (allEmb (m ((c : Thread nD τ).loc main_arg0)) (m ((c : Thread nD τ).loc main_arg1)))) :=
  (W2_arr m ρ c 2).trans ((final0 (V1 m ρ) c).trans (congrArg₂ edgeW (W1_v1 m ρ c) (W1_v8 m ρ c)))

theorem W2_v0 : W2 m ρ c (Proc.devRef .tc main_v0) = allEmb (m ((c : Thread nD τ).loc main_arg0)) (m ((c : Thread nD τ).loc main_arg1)) :=
  (W2_of_ne m ρ c main_v0 (by decide)).trans (W1_v0 m ρ c)

theorem W2_v1 : W2 m ρ c (Proc.devRef .tc main_v1) = wCol (m ((c : Thread nD τ).loc main_arg4)) :=
  (W2_arr m ρ c 0).trans ((kept0_col (V1 m ρ) c).trans (W1_v1 m ρ c))

/-! ## Before region 1 -/

theorem W3_v13 : W3 m ρ c (Proc.devRef .tc main_v13) = acc1K (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v13) = _
  dsimp only [hostOps1]
  after_results_simp
  rw [W2_v0 m ρ c, W2_arg2 m ρ c, W2_v9 m ρ c]
  try rfl

set_option maxHeartbeats 1000000 in
theorem W3_v20 : W3 m ρ c (Proc.devRef .tc main_v20) = gatherEdges (m ((c : Thread nD τ).loc main_arg3)) (s1K (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v20) = _
  dsimp only [hostOps1]
  after_results_simp
  rw [W2_arg2 m ρ c, W2_v9 m ρ c, W2_arg3 m ρ c]
  try rfl

theorem W3_v1 : W3 m ρ c (Proc.devRef .tc main_v1) = wCol (m ((c : Thread nD τ).loc main_arg4)) :=
  (show W3 m ρ c (Proc.devRef .tc main_v1) = W2 m ρ c (Proc.devRef .tc main_v1) by keep_host).trans (W2_v1 m ρ c)

/-! ## After region 1 -/

theorem W4_v21 : W4 m ρ c (Proc.devRef .tc main_v21) = edgeW (wCol (m ((c : Thread nD τ).loc main_arg4))) (gatherEdges (m ((c : Thread nD τ).loc main_arg3)) (s1K (m ((c : Thread nD τ).loc main_arg0)) (m ((c : Thread nD τ).loc main_arg1)) (m ((c : Thread nD τ).loc main_arg2)) (m ((c : Thread nD τ).loc main_arg3)) (m ((c : Thread nD τ).loc main_arg4)))) :=
  (W4_arr m ρ c 2).trans ((final1 (V3 m ρ) c).trans (congrArg₂ edgeW (W3_v1 m ρ c) (W3_v20 m ρ c)))

theorem W4_v13 : W4 m ρ c (Proc.devRef .tc main_v13) = acc1K (m ((c : Thread nD τ).loc main_arg0)) (m ((c : Thread nD τ).loc main_arg1)) (m ((c : Thread nD τ).loc main_arg2)) (m ((c : Thread nD τ).loc main_arg3)) (m ((c : Thread nD τ).loc main_arg4)) :=
  (W4_of_ne m ρ c main_v13 (by decide)).trans (W3_v13 m ρ c)

theorem W4_v1 : W4 m ρ c (Proc.devRef .tc main_v1) = wCol (m ((c : Thread nD τ).loc main_arg4)) :=
  (W4_arr m ρ c 0).trans ((kept1_col (V3 m ρ) c).trans (W3_v1 m ρ c))

/-! ## Before region 2 -/

theorem W5_v25 : W5 m ρ c (Proc.devRef .tc main_v25) = acc2K (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v25) = _
  dsimp only [hostOps2]
  after_results_simp
  rw [W4_v13 m ρ c, W4_arg2 m ρ c, W4_v21 m ρ c]
  try rfl

set_option maxHeartbeats 1000000 in
theorem W5_v32 : W5 m ρ c (Proc.devRef .tc main_v32) = gatherEdges (m ((c : Thread nD τ).loc main_arg3)) (s2K (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) (Proc.devRef .tc main_v32) = _
  dsimp only [hostOps2]
  after_results_simp
  rw [W4_arg2 m ρ c, W4_v21 m ρ c, W4_arg3 m ρ c]
  try rfl

theorem W5_v1 : W5 m ρ c (Proc.devRef .tc main_v1) = wCol (m ((c : Thread nD τ).loc main_arg4)) :=
  (show W5 m ρ c (Proc.devRef .tc main_v1) = W4 m ρ c (Proc.devRef .tc main_v1) by keep_host).trans (W4_v1 m ρ c)

/-! ## After region 2 -/

theorem W6_v33 : W6 m ρ c (Proc.devRef .tc main_v33) = edgeW (wCol (m ((c : Thread nD τ).loc main_arg4))) (gatherEdges (m ((c : Thread nD τ).loc main_arg3)) (s2K (m ((c : Thread nD τ).loc main_arg0)) (m ((c : Thread nD τ).loc main_arg1)) (m ((c : Thread nD τ).loc main_arg2)) (m ((c : Thread nD τ).loc main_arg3)) (m ((c : Thread nD τ).loc main_arg4)))) :=
  (W6_arr m ρ c 2).trans ((final2 (V5 m ρ) c).trans (congrArg₂ edgeW (W5_v1 m ρ c) (W5_v32 m ρ c)))

theorem W6_v25 : W6 m ρ c (Proc.devRef .tc main_v25) = acc2K (m ((c : Thread nD τ).loc main_arg0)) (m ((c : Thread nD τ).loc main_arg1)) (m ((c : Thread nD τ).loc main_arg2)) (m ((c : Thread nD τ).loc main_arg3)) (m ((c : Thread nD τ).loc main_arg4)) :=
  (W6_of_ne m ρ c main_v25 (by decide)).trans (W5_v25 m ρ c)

/-! ## Before region 3: the six gathered arrays -/

theorem W7_v46 : W7 m ρ c (Proc.devRef .tc main_v46) = gatherLight (lightK (m ((c : Thread nD τ).loc main_arg0)) (m ((c : Thread nD τ).loc main_arg1)) (m ((c : Thread nD τ).loc main_arg2)) (m ((c : Thread nD τ).loc main_arg3)) (m ((c : Thread nD τ).loc main_arg4))) (wrapBatch 150000#32 (m ((c : Thread nD τ).loc main_arg5))) := by
  show StableHlo.after hostOps3 (W6 m ρ c) (Proc.devRef .tc main_v46) = _
  dsimp only [hostOps3]
  after_results_simp
  rw [W6_v25 m ρ c, W6_arg2 m ρ c, W6_v33 m ρ c, W6_arg5 m ρ c]
  try rfl

theorem W7_v55 : W7 m ρ c (Proc.devRef .tc main_v55) = gatherLight (lightK (m ((c : Thread nD τ).loc main_arg0)) (m ((c : Thread nD τ).loc main_arg1)) (m ((c : Thread nD τ).loc main_arg2)) (m ((c : Thread nD τ).loc main_arg3)) (m ((c : Thread nD τ).loc main_arg4))) (wrapBatch 150000#32 (itemShift (m ((c : Thread nD τ).loc main_arg6)))) := by
  show StableHlo.after hostOps3 (W6 m ρ c) (Proc.devRef .tc main_v55) = _
  dsimp only [hostOps3]
  after_results_simp
  rw [W6_v25 m ρ c, W6_arg2 m ρ c, W6_v33 m ρ c, W6_arg6 m ρ c]
  try rfl

theorem W7_v64 : W7 m ρ c (Proc.devRef .tc main_v64) = gatherLight (lightK (m ((c : Thread nD τ).loc main_arg0)) (m ((c : Thread nD τ).loc main_arg1)) (m ((c : Thread nD τ).loc main_arg2)) (m ((c : Thread nD τ).loc main_arg3)) (m ((c : Thread nD τ).loc main_arg4))) (wrapBatch 150000#32 (itemShift (m ((c : Thread nD τ).loc main_arg7)))) := by
  show StableHlo.after hostOps3 (W6 m ρ c) (Proc.devRef .tc main_v64) = _
  dsimp only [hostOps3]
  after_results_simp
  rw [W6_v25 m ρ c, W6_arg2 m ρ c, W6_v33 m ρ c, W6_arg7 m ρ c]
  try rfl

theorem W7_v71 : W7 m ρ c (Proc.devRef .tc main_v71) = gatherUser (m ((c : Thread nD τ).loc main_arg0)) (wrapBatch 100000#32 (m ((c : Thread nD τ).loc main_arg5))) := by
  show StableHlo.after hostOps3 (W6 m ρ c) (Proc.devRef .tc main_v71) = _
  dsimp only [hostOps3]
  after_results_simp
  rw [W6_arg0 m ρ c, W6_arg5 m ρ c]
  try rfl

theorem W7_v78 : W7 m ρ c (Proc.devRef .tc main_v78) = gatherItem (m ((c : Thread nD τ).loc main_arg1)) (wrapBatch 50000#32 (m ((c : Thread nD τ).loc main_arg6))) := by
  show StableHlo.after hostOps3 (W6 m ρ c) (Proc.devRef .tc main_v78) = _
  dsimp only [hostOps3]
  after_results_simp
  rw [W6_arg1 m ρ c, W6_arg6 m ρ c]
  try rfl

theorem W7_v85 : W7 m ρ c (Proc.devRef .tc main_v85) = gatherItem (m ((c : Thread nD τ).loc main_arg1)) (wrapBatch 50000#32 (m ((c : Thread nD τ).loc main_arg7))) := by
  show StableHlo.after hostOps3 (W6 m ρ c) (Proc.devRef .tc main_v85) = _
  dsimp only [hostOps3]
  after_results_simp
  rw [W6_arg1 m ρ c, W6_arg7 m ρ c]
  try rfl

/-! ## After region 3, and the result -/

theorem W8_v86 : W8 m ρ c (Proc.devRef .tc main_v86) = fun _ => lossK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 6).trans ((final3 (V7 m ρ) c).trans ?_)
  unfold lossArr lossK
  rw [show V7 m ρ c main_v46 = _ from W7_v46 m ρ c, show V7 m ρ c main_v55 = _ from W7_v55 m ρ c,
    show V7 m ρ c main_v64 = _ from W7_v64 m ρ c, show V7 m ρ c main_v71 = _ from W7_v71 m ρ c,
    show V7 m ρ c main_v78 = _ from W7_v78 m ρ c, show V7 m ρ c main_v85 = _ from W7_v85 m ρ c]
  rfl

/-- The result buffer at the end of the run: the scalar holding the loss of the launch arrays. -/
theorem W9_v87 : W9 m ρ c (Proc.devRef .tc main_v87) = fun _ => lossK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v87) = _
  dsimp only [hostOps4]
  after_results
  rw [W8_v86 m ρ c]
  rfl

end Cert.KernelIdeal.Bridge

end
-- ==== Proof.LossHost.lean ====
/-
  The reference's loss at the ideal values.  On the host the reference takes six gathered [4096, 64] arrays and computes:
  the three squared norms, each ONE sum over both axes from a zero initial value; half their sum over 4096; the two
  vectors of row inner products; softplus of their difference, entry by entry; its sum over 4096; and the weighted
  total.  Read at the scalar's one index this is the loss function of Cert.Bpr: a sum over both axes is the double sum
  over rows and columns, the not-equal test on the extended reals does not depend on its ordered or unordered
  spelling, and the host's negation and absolute value are the ones the loss is written with.
-/
import proofs.«130716_j31147102830630_2_alg».proof.ReferenceIdeal
import proofs.«130716_j31147102830630_2_alg».proof.Proof.Gen.ReferenceIdeal
import proofs.«130716_j31147102830630_2_alg».proof.Proof.BprLoss

open scoped BigOperators

noncomputable section

namespace Cert.ReferenceIdeal.Bridge

open Cert.ReferenceIdeal Cert.ReferenceIdeal.Gen Idealize.ShloMosaic Idealize.ShloMosaic.ValueIdx Cert.Bpr

abbrev R_batch : Type := (⟨S4096x64, .f32⟩ : BufTy).Contents (Elt Ideal)
abbrev R_vec : Type := (⟨S4096, .f32⟩ : BufTy).Contents (Elt Ideal)
abbrev R_sc : Type := (⟨S_, .f32⟩ : BufTy).Contents (Elt Ideal)

/-- The squared norm of a gathered array: one host sum over both axes. -/
def sqHost (x : R_batch) : R_sc :=
  Host.reduceAdd (F := Ideal) (φ := .f32) (mulf (F := Ideal) (φ := .f32) x x) (constant (F := Ideal) S_ .f32 0x00000000#32) reducesTo_S4096x64_S_d0_1 h_S_

/-- The regulariser: half the three squared norms, over 4096. -/
def regHost (uo po no : R_batch) : R_sc :=
  Host.divf (F := Ideal) (φ := .f32)
    (mulf (F := Ideal) (φ := .f32) (constant (F := Ideal) S_ .f32 0x3F000000#32)
      (addf (F := Ideal) (φ := .f32) (addf (F := Ideal) (φ := .f32) (sqHost uo) (sqHost po)) (sqHost no)))
    (constant (F := Ideal) S_ .f32 0x45800000#32)

/-- The vector of row inner products: a host sum over the columns. -/
def dotHost (x y : R_batch) : R_vec :=
  Host.reduceAdd (F := Ideal) (φ := .f32) (mulf (F := Ideal) (φ := .f32) x y) (constant (F := Ideal) S_ .f32 0x00000000#32) reducesTo_S4096x64_S4096_d1 h_S_

/-- The zero scalar broadcast to a vector. -/
def zeroVec : R_vec := broadcastInDim S4096 ![] bcast_S_S4096 (constant (F := Ideal) S_ .f32 0x00000000#32)

/-- softplus, entry by entry, as the host spells it. -/
def spHost (z : R_vec) : R_vec :=
  select (cmpf (F := Ideal) (φ := .f32) .une (subf (F := Ideal) (φ := .f32) z zeroVec) (subf (F := Ideal) (φ := .f32) z zeroVec)) (addf (F := Ideal) (φ := .f32) z zeroVec)
    (addf (F := Ideal) (φ := .f32) (maximumf (F := Ideal) (φ := .f32) z zeroVec)
      (Host.log1p (F := Ideal) (φ := .f32) (Host.exp (F := Ideal) (φ := .f32) (Host.negf (F := Ideal) (φ := .f32) (Host.absf (F := Ideal) (φ := .f32) (subf (F := Ideal) (φ := .f32) z zeroVec))))))

/-- The reference's loss of the six gathered arrays. -/
def hostLoss (ue pe ne uo po no : R_batch) : R_sc :=
  addf (F := Ideal) (φ := .f32)
    (Host.divf (F := Ideal) (φ := .f32)
      (Host.reduceAdd (F := Ideal) (φ := .f32) (spHost (subf (F := Ideal) (φ := .f32) (dotHost ue ne) (dotHost ue pe))) (constant (F := Ideal) S_ .f32 0x00000000#32) reducesTo_S4096_S_d0 h_S_)
      (constant (F := Ideal) S_ .f32 0x45800000#32))
    (mulf (F := Ideal) (φ := .f32) (constant (F := Ideal) S_ .f32 0x38D1B717#32) (regHost uo po no))

theorem sqHost_apply (x : R_batch) (i : S_.Idx) : sqHost x i = sqSum x := by
  unfold sqHost
  simp only [Host.reduceAdd, Ideal.hostReduceAdd_def]
  exact (hostSum_all _ reducesTo_S4096x64_S_d0_1 i).trans rfl

theorem dotHost_apply (x y : R_batch) (r : Fin 4096) : dotHost x y (ix1 r) = rowDot x y r := by
  unfold dotHost
  simp only [Host.reduceAdd, Ideal.hostReduceAdd_def]
  exact (hostSum_row _ reducesTo_S4096x64_S4096_d1 (by decide) r).trans rfl

theorem zeroVec_apply (j : S4096.Idx) : zeroVec j = 0 := by
  unfold zeroVec
  rw [broadcastInDim_apply _ bcast_S_S4096 _ j ix0 (fun a => a.elim0)]
  exact Ideal.ofBits_zero_f32

theorem spHost_apply (z : R_vec) (j : S4096.Idx) : spHost z j = softplus (z j) := by
  unfold spHost softplus
  show Scalar.select (Ideal.cmp .une (z j - zeroVec j) (z j - zeroVec j)) (z j + zeroVec j)
      (max (z j) (zeroVec j) + Ideal.log1p (Ideal.exp (-(max (z j - zeroVec j) (-(z j - zeroVec j)))))) = _
  rw [zeroVec_apply]
  rfl

theorem regHost_apply (uo po no : R_batch) (i : S_.Idx) :
    regHost uo po no i = Ideal.div (Ideal.ofBits .f32 0x3F000000#32 * (sqSum uo + sqSum po + sqSum no)) (Ideal.ofBits .f32 0x45800000#32) := by
  unfold regHost
  show Ideal.div (Ideal.ofBits .f32 0x3F000000#32 * ((sqHost uo i + sqHost po i) + sqHost no i)) (Ideal.ofBits .f32 0x45800000#32) = _
  rw [sqHost_apply, sqHost_apply, sqHost_apply]

/-- The reference's loss, at the scalar's index, is the loss of the six arrays. -/
theorem hostLoss_apply (ue pe ne uo po no : R_batch) (i : S_.Idx) : hostLoss ue pe ne uo po no i = loss ue pe ne uo po no := by
  have hsum : Host.reduceAdd (F := Ideal) (φ := .f32) (spHost (subf (F := Ideal) (φ := .f32) (dotHost ue ne) (dotHost ue pe))) (constant (F := Ideal) S_ .f32 0x00000000#32) reducesTo_S4096_S_d0 h_S_ i
      = ∑ r : Fin 4096, softplus (rowDot ue ne r - rowDot ue pe r) := by
    simp only [Host.reduceAdd, Ideal.hostReduceAdd_def]
    refine (hostSum_vec _ reducesTo_S4096_S_d0 i).trans ?_
    refine Finset.sum_congr rfl fun r _ => ?_
    rw [spHost_apply]
    show softplus (dotHost ue ne (ix1 r) - dotHost ue pe (ix1 r)) = _
    rw [dotHost_apply, dotHost_apply]
  unfold hostLoss loss
  show Ideal.div (Host.reduceAdd (F := Ideal) (φ := .f32) (spHost (subf (F := Ideal) (φ := .f32) (dotHost ue ne) (dotHost ue pe))) (constant (F := Ideal) S_ .f32 0x00000000#32) reducesTo_S4096_S_d0 h_S_ i) (Ideal.ofBits .f32 0x45800000#32)
      + Ideal.ofBits .f32 0x38D1B717#32 * regHost uo po no i = _
  rw [hsum, regHost_apply]

end Cert.ReferenceIdeal.Bridge

end
-- ==== Proof.Bridge.lean ====
/-
  The reference computes the kernel's function.  Stage by stage, the reference's host operations are the pieces of the
  kernel's value function (Cert.KernelIdeal.Bridge): the stacked embeddings, the wrapped index columns, the gathers and
  scatter-adds are the same operations; the one difference inside a layer is that the reference multiplies the gathered
  rows by the weights broadcast first to a column and then across the 64 columns, where the kernel's region multiplies by
  the weight column reshaped from the same vector — both read weight(e) at edge e.  So the three layers, the average and
  the six gathered arrays agree, and the reference's loss of them is the loss function both sides share.
-/
import proofs.«130716_j31147102830630_2_alg».proof.Proof.Gen.ReferenceIdeal.Read
import proofs.«130716_j31147102830630_2_alg».proof.Proof.KernelSpec
import proofs.«130716_j31147102830630_2_alg».proof.Proof.LossHost

set_option maxRecDepth 16384

noncomputable section

namespace Cert.Bridge

open Idealize.ShloMosaic Idealize.ShloMosaic.ValueIdx Cert.Bpr
open Cert.ReferenceIdeal Cert.ReferenceIdeal.Read Cert.ReferenceIdeal.Bridge
open Cert.KernelIdeal.Bridge

variable (x0 : (⟨S100000x64, .f32⟩ : BufTy).Contents (Elt Ideal)) (x1 : (⟨S50000x64, .f32⟩ : BufTy).Contents (Elt Ideal))
  (x2 x3 : (⟨S4000000, .i32⟩ : BufTy).Contents (Elt Ideal)) (x4 : (⟨S4000000, .f32⟩ : BufTy).Contents (Elt Ideal))
  (x5 x6 x7 : (⟨S4096, .i32⟩ : BufTy).Contents (Elt Ideal))

/-- The weight column reshaped from the weight vector reads weight(e) at (e, 0). -/
theorem wCol_apply (i : S4000000x64.Idx) : wCol x4 (colIdx i) = x4 (ix1 ⟨(i 0).val, idx2_lt0 i⟩) := by
  have h : colIdx i = ix2 (⟨(i 0).val, idx2_lt0 i⟩ : Fin 4000000) (0 : Fin 1) := by
    funext a
    match a with
    | ⟨0, _⟩ => rfl
    | ⟨1, _⟩ => rfl
  rw [h]
  exact Cert.LibLayout3.shapeCast_a_a1_apply x4 _ _ _

/-- Multiplying by the weights broadcast to [4000000, 64] is the edge-weighting by the reshaped column (layer 1's
    broadcast). -/
theorem edge_eq1 (g : (⟨S4000000x64, .f32⟩ : BufTy).Contents (Elt Ideal)) :
    mulf (F := Ideal) (φ := .f32) (val_main_v9 (F := Ideal) x4) g = edgeW (wCol x4) g := by
  funext i
  show val_main_v9 (F := Ideal) x4 i * g i = wCol x4 (colIdx i) * g i
  rw [val_main_v9_apply, val_main_v1_apply, wCol_apply]
  refine congrArg (fun t => x4 t * g i) ?_
  funext a
  match a with
  | ⟨0, _⟩ => rfl

/-- The same for layer 2's broadcast. -/
theorem edge_eq2 (g : (⟨S4000000x64, .f32⟩ : BufTy).Contents (Elt Ideal)) :
    mulf (F := Ideal) (φ := .f32) (val_main_v23 (F := Ideal) x4) g = edgeW (wCol x4) g := by
  funext i
  show val_main_v23 (F := Ideal) x4 i * g i = wCol x4 (colIdx i) * g i
  rw [val_main_v23_apply, val_main_v15_apply, wCol_apply]
  refine congrArg (fun t => x4 t * g i) ?_
  funext a
  match a with
  | ⟨0, _⟩ => rfl

/-- The same for layer 3's broadcast. -/
theorem edge_eq3 (g : (⟨S4000000x64, .f32⟩ : BufTy).Contents (Elt Ideal)) :
    mulf (F := Ideal) (φ := .f32) (val_main_v37 (F := Ideal) x4) g = edgeW (wCol x4) g := by
  funext i
  show val_main_v37 (F := Ideal) x4 i * g i = wCol x4 (colIdx i) * g i
  rw [val_main_v37_apply, val_main_v29_apply, wCol_apply]
  refine congrArg (fun t => x4 t * g i) ?_
  funext a
  match a with
  | ⟨0, _⟩ => rfl

/-! ## Layer 1 -/

theorem st_v10 : val_main_v10 (F := Ideal) x0 x1 x3 x4 = edgeW (wCol x4) (gatherEdges x3 (allEmb x0 x1)) := by
  unfold val_main_v10
  exact (edge_eq1 x4 _).trans rfl

theorem st_v13 : val_main_v13 (F := Ideal) x0 x1 x2 x3 x4 = s1K x0 x1 x2 x3 x4 := by
  unfold val_main_v13
  rw [st_v10]
  rfl

theorem st_v14 : val_main_v14 (F := Ideal) x0 x1 x2 x3 x4 = acc1K x0 x1 x2 x3 x4 := by
  unfold val_main_v14
  rw [st_v13]
  rfl

/-! ## Layer 2 -/

theorem st_v24 : val_main_v24 (F := Ideal) x0 x1 x2 x3 x4 = edgeW (wCol x4) (gatherEdges x3 (s1K x0 x1 x2 x3 x4)) := by
  unfold val_main_v24 val_main_v22
  rw [st_v13]
  exact (edge_eq2 x4 _).trans rfl

theorem st_v27 : val_main_v27 (F := Ideal) x0 x1 x2 x3 x4 = s2K x0 x1 x2 x3 x4 := by
  unfold val_main_v27
  rw [st_v24]
  rfl

theorem st_v28 : val_main_v28 (F := Ideal) x0 x1 x2 x3 x4 = acc2K x0 x1 x2 x3 x4 := by
  unfold val_main_v28
  rw [st_v14, st_v27]
  rfl

/-! ## Layer 3 and the average -/

theorem st_v38 : val_main_v38 (F := Ideal) x0 x1 x2 x3 x4 = edgeW (wCol x4) (gatherEdges x3 (s2K x0 x1 x2 x3 x4)) := by
  unfold val_main_v38 val_main_v36
  rw [st_v27]
  exact (edge_eq3 x4 _).trans rfl

theorem st_v41 : val_main_v41 (F := Ideal) x0 x1 x2 x3 x4 = s3K x0 x1 x2 x3 x4 := by
  unfold val_main_v41
  rw [st_v38]
  rfl

theorem st_v42 : val_main_v42 (F := Ideal) x0 x1 x2 x3 x4 = acc3K x0 x1 x2 x3 x4 := by
  unfold val_main_v42
  rw [st_v28, st_v41]
  rfl

theorem st_v44 : val_main_v44 (F := Ideal) x0 x1 x2 x3 x4 = lightK x0 x1 x2 x3 x4 := by
  unfold val_main_v44
  rw [st_v42]
  rfl

/-! ## The six gathered arrays -/

theorem st_v51 : val_main_v51 (F := Ideal) x0 x1 x2 x3 x4 x5 = gatherLight (lightK x0 x1 x2 x3 x4) (wrapBatch 150000#32 x5) := by
  unfold val_main_v51
  rw [st_v44]
  rfl

theorem st_v60 : val_main_v60 (F := Ideal) x0 x1 x2 x3 x4 x6 = gatherLight (lightK x0 x1 x2 x3 x4) (wrapBatch 150000#32 (itemShift x6)) := by
  unfold val_main_v60
  rw [st_v44]
  rfl

theorem st_v69 : val_main_v69 (F := Ideal) x0 x1 x2 x3 x4 x7 = gatherLight (lightK x0 x1 x2 x3 x4) (wrapBatch 150000#32 (itemShift x7)) := by
  unfold val_main_v69
  rw [st_v44]
  rfl

theorem st_v76 : val_main_v76 (F := Ideal) x0 x5 = gatherUser x0 (wrapBatch 100000#32 x5) := rfl
theorem st_v83 : val_main_v83 (F := Ideal) x1 x6 = gatherItem x1 (wrapBatch 50000#32 x6) := rfl
theorem st_v90 : val_main_v90 (F := Ideal) x1 x7 = gatherItem x1 (wrapBatch 50000#32 x7) := rfl

/-! ## The result -/

/-- The reference's result is its loss of the six gathered arrays. -/
theorem st_v110 : val_main_v110 (F := Ideal) x0 x1 x2 x3 x4 x5 x6 x7
    = hostLoss (val_main_v51 (F := Ideal) x0 x1 x2 x3 x4 x5) (val_main_v60 (F := Ideal) x0 x1 x2 x3 x4 x6) (val_main_v69 (F := Ideal) x0 x1 x2 x3 x4 x7)
        (val_main_v76 (F := Ideal) x0 x5) (val_main_v83 (F := Ideal) x1 x6) (val_main_v90 (F := Ideal) x1 x7) := rfl

/-- The reference's result, as a function of its arguments, is the kernel's. -/
theorem ref_value : val_main_v110 (F := Ideal) x0 x1 x2 x3 x4 x5 x6 x7 = fun _ => lossK x0 x1 x2 x3 x4 x5 x6 x7 := by
  funext i
  rw [st_v110, hostLoss_apply, st_v51, st_v60, st_v69, st_v76, st_v83, st_v90]
  rfl

end Cert.Bridge

end
-- ==== Proof.lean ====
/-
  The certificate of a graph-convolution recommender's loss: three propagation layers over a 4,000,000-edge graph on
  150,000 nodes of 64-wide embeddings, the layers averaged, the batch's rows gathered, and the BPR loss with an L2
  regulariser taken.  The kernel does each layer's edge weighting and the final loss in kernel regions and everything
  else (stacking, index wrapping, gathers, scatter-adds, additions) on the host; the reference does all of it on the
  host.

  Over the extended reals the two programs compute one function of the eight argument arrays:
    * a layer's weighted rows: the region multiplies row e of the gathered array by the weight column's entry (e, 0),
      block by block, and its 500 blocks tile the array; the reference multiplies by the weights broadcast across the
      columns; both read weight(e);
    * the loss: the region sums squares and products along rows first and keeps unit axes, the reference sums over all
      entries at once; finite sums on the extended reals may be regrouped freely; the softplus terms differ only in
      writing 0 - |z| for -|z|.
  No law used needs the inputs finite, so the precondition is not opened.

  The three frames are the generated ones (the reference's is its generated run with the result dropped); the ideal
  pass rewrote nothing, so there is nothing to preserve.
-/
import proofs.«130716_j31147102830630_2_alg».proof.Defs
import proofs.«130716_j31147102830630_2_alg».proof.Proof.Gen.Kernel
import proofs.«130716_j31147102830630_2_alg».proof.Proof.Gen.Kernel.Skeleton
import proofs.«130716_j31147102830630_2_alg».proof.Proof.Gen.Kernel.Launch
import proofs.«130716_j31147102830630_2_alg».proof.Proof.Gen.Kernel.Points
import proofs.«130716_j31147102830630_2_alg».proof.Proof.Gen.Kernel.Frame
import proofs.«130716_j31147102830630_2_alg».proof.Proof.Gen.KernelIdeal
import proofs.«130716_j31147102830630_2_alg».proof.Proof.Gen.KernelIdeal.Skeleton
import proofs.«130716_j31147102830630_2_alg».proof.Proof.Gen.KernelIdeal.Launch
import proofs.«130716_j31147102830630_2_alg».proof.Proof.Gen.KernelIdeal.Points
import proofs.«130716_j31147102830630_2_alg».proof.Proof.Gen.KernelIdeal.Frame
import proofs.«130716_j31147102830630_2_alg».proof.Proof.Gen.ReferenceIdeal
import proofs.«130716_j31147102830630_2_alg».proof.Proof.Gen.ReferenceIdeal.Run
import proofs.«130716_j31147102830630_2_alg».proof.Proof.Gen.ReferenceIdeal.Read
import proofs.«130716_j31147102830630_2_alg».proof.Proof.Gen.Pre_finite_inputs
import proofs.«130716_j31147102830630_2_alg».proof.Proof.KernelRun
import proofs.«130716_j31147102830630_2_alg».proof.Proof.Stages
import proofs.«130716_j31147102830630_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the loss `lossK` of the kernel's launch arrays in their result buffers: the
    kernel by reading its run boundary by boundary, the reference by its run and the stage-by-stage agreement, from
    argument arrays that agree. -/
theorem algebraic : Cert.algebraic_KernelIdeal_ReferenceIdeal := by
  intro m ρ m' ρ' _ hagree
  refine ⟨fun c => fun _ => Cert.KernelIdeal.Bridge.lossK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Bridge.W9_v87 m ρ c), (h c).2⟩)
      (Cert.KernelIdeal.Bridge.run_boundary m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    refine (h c).1.trans ((Cert.ReferenceIdeal.Read.val_main_v110_eq (F := Ideal) m' c).trans ?_)
    rw [Cert.Bridge.ref_value, e0, e1, e2, e3, e4, e5, e6, e7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
